-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x256 : Shape := ⟨2, ![30000, 256]⟩
abbrev S1792x256 : Shape := ⟨2, ![1792, 256]⟩
abbrev S256 : Shape := ⟨1, ![256]⟩
abbrev S256x256 : Shape := ⟨2, ![256, 256]⟩
abbrev S1000000 : Shape := ⟨1, ![1000000]⟩
abbrev S30000 : Shape := ⟨1, ![30000]⟩
abbrev S_ : Shape := ⟨0, ![]⟩

class Facts : Prop where
  bcast_S_S30000x256 : S_.BroadcastsInDim S30000x256 (![] : Fin 0 → Fin S30000x256.rank)
  reducesTo_S30000x256_S_d0_1 : S30000x256.ReducesTo [0, 1] S_
  h_S_ : 0 < S_.numel
  bcast_S_S1792x256 : S_.BroadcastsInDim S1792x256 (![] : Fin 0 → Fin S1792x256.rank)
  reducesTo_S1792x256_S_d0_1 : S1792x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1000000 : S_.BroadcastsInDim S1000000 (![] : Fin 0 → Fin S1000000.rank)
  reducesTo_S1000000_S_d0 : S1000000.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256x256 .f32) (main_arg12 : FVec F S256 .f32) (main_arg13 : FVec F S1000000 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S1000000 .f32 := Host.absf main_arg13
  let main_cst_24 : FVec F S_ .f32 := constant S_ .f32 0x7F800000#32
  let main_v65 : FVec F S1000000 .f32 := broadcastInDim S1000000 ![] bcast_S_S1000000 main_cst_24
  let main_v66 : IVec S1000000 1 := cmpf .olt main_v64 main_v65
  let main_c_25 : IVec S_ 1 := constantI S_ 1 1#1
  let main_v67 : IVec S_ 1 := (fun x v => Host.reduce IntOp.andi x v reducesTo_S1000000_S_d0 h_S_) main_v66 main_c_25
  fn_part4 (F := F) main_v63 main_v67

def fn_part2 {F : FTy → Type} [FloatOps F] (main_arg7 : FVec F S256x256 .f32) (main_arg8 : FVec F S256 .f32) (main_arg9 : FVec F S1792x256 .f32) (main_arg10 : FVec F S256 .f32) (main_arg11 : FVec F S256x256 .f32) (main_arg12 : FVec F S256 .f32) (main_arg13 : FVec F S1000000 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S1792x256 .f32 := Host.absf main_arg9
  let main_cst_16 : FVec F S_ .f32 := constant S_ .f32 0x7F800000#32
  let main_v45 : FVec F S1792x256 .f32 := broadcastInDim S1792x256 ![] bcast_S_S1792x256 main_cst_16
  let main_v46 : IVec S1792x256 1 := cmpf .olt main_v44 main_v45
  let main_c_17 : IVec S_ 1 := constantI S_ 1 1#1
  let main_v47 : IVec S_ 1 := (fun x v => Host.reduce IntOp.andi x v reducesTo_S1792x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_v48 main_v49 main_v50

def fn_part1 {F : FTy → Type} [FloatOps F] (main_arg4 : FVec F S256 .f32) (main_arg5 : FVec F S1792x256 .f32) (main_arg6 : FVec F S256 .f32) (main_arg7 : FVec F S256x256 .f32) (main_arg8 : FVec F S256 .f32) (main_arg9 : FVec F S1792x256 .f32) (main_arg10 : FVec F S256 .f32) (main_arg11 : FVec F S256x256 .f32) (main_arg12 : FVec F S256 .f32) (main_arg13 : FVec F S1000000 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1792x256 .f32 := Host.absf main_arg5
  let main_cst_8 : FVec F S_ .f32 := constant S_ .f32 0x7F800000#32
  let main_v25 : FVec F S1792x256 .f32 := broadcastInDim S1792x256 ![] bcast_S_S1792x256 main_cst_8
  let main_v26 : IVec S1792x256 1 := cmpf .olt main_v24 main_v25
  let main_c_9 : IVec S_ 1 := constantI S_ 1 1#1
  let main_v27 : IVec S_ 1 := (fun x v => Host.reduce IntOp.andi x v reducesTo_S1792x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S30000x256 .f32) (main_arg1 : FVec F S1792x256 .f32) (main_arg2 : FVec F S256 .f32) (main_arg3 : FVec F S256x256 .f32) (main_arg4 : FVec F S256 .f32) (main_arg5 : FVec F S1792x256 .f32) (main_arg6 : FVec F S256 .f32) (main_arg7 : FVec F S256x256 .f32) (main_arg8 : FVec F S256 .f32) (main_arg9 : FVec F S1792x256 .f32) (main_arg10 : FVec F S256 .f32) (main_arg11 : FVec F S256x256 .f32) (main_arg12 : FVec F S256 .f32) (main_arg13 : FVec F S1000000 .f32) (main_arg14 : IVec S1000000 32) (main_arg15 : IVec S1000000 32) (main_arg16 : IVec S1000000 32) (main_arg17 : IVec S30000 32) : IVec S_ 1 :=
  let main_v0 : FVec F S30000x256 .f32 := Host.absf main_arg0
  let main_cst : FVec F S_ .f32 := constant S_ .f32 0x7F800000#32
  let main_v1 : FVec F S30000x256 .f32 := broadcastInDim S30000x256 ![] bcast_S_S30000x256 main_cst
  let main_v2 : IVec S30000x256 1 := cmpf .olt main_v0 main_v1
  let main_c : IVec S_ 1 := constantI S_ 1 1#1
  let main_v3 : IVec S_ 1 := (fun x v => Host.reduce IntOp.andi x v reducesTo_S30000x256_S_d0_1 h_S_) main_v2 main_c
  let main_v4 : FVec F S1792x256 .f32 := Host.absf main_arg1
  let main_cst_0 : FVec F S_ .f32 := constant S_ .f32 0x7F800000#32
  let main_v5 : FVec F S1792x256 .f32 := broadcastInDim S1792x256 ![] bcast_S_S1792x256 main_cst_0
  let main_v6 : IVec S1792x256 1 := cmpf .olt main_v4 main_v5
  let main_c_1 : IVec S_ 1 := constantI S_ 1 1#1
  let main_v7 : IVec S_ 1 := (fun x v => Host.reduce IntOp.andi x v reducesTo_S1792x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_v13 main_v16
-- ==== Kernel.lean ====
abbrev S30000x256 : Shape := ⟨2, ![30000, 256]⟩
abbrev S1792x256 : Shape := ⟨2, ![1792, 256]⟩
abbrev S256 : Shape := ⟨1, ![256]⟩
abbrev S256x256 : Shape := ⟨2, ![256, 256]⟩
abbrev S1000000 : Shape := ⟨1, ![1000000]⟩
abbrev S30000 : Shape := ⟨1, ![30000]⟩
abbrev S_ : Shape := ⟨0, ![]⟩
abbrev S210000 : Shape := ⟨1, ![210000]⟩
abbrev S1000000x1 : Shape := ⟨2, ![1000000, 1]⟩
abbrev S30000x7 : Shape := ⟨2, ![30000, 7]⟩
abbrev S7x256x256 : Shape := ⟨3, ![7, 256, 256]⟩
abbrev S7x256 : Shape := ⟨2, ![7, 256]⟩
abbrev S3000x7 : Shape := ⟨2, ![3000, 7]⟩
abbrev S3000x256 : Shape := ⟨2, ![3000, 256]⟩
abbrev S1x256 : Shape := ⟨2, ![1, 256]⟩
abbrev S100x256 : Shape := ⟨2, ![100, 256]⟩
abbrev S30000x1 : Shape := ⟨2, ![30000, 1]⟩

abbrev nBuf : Space → Nat
  | .hbm => 41
  | .vmem => 18
  | .smem => 0
  | _ => 0

abbrev bufTy : (tb : Table) → Fin (tcTables nBuf tb) → BufTy
  | .hbm, ⟨0, _⟩ => ⟨S30000x256, .f32⟩
  | .hbm, ⟨1, _⟩ => ⟨S1792x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S1792x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1792x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S1000000, .f32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S30000, .i32⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S_, .f32⟩
  | .hbm, ⟨23, _⟩ => ⟨S210000, .f32⟩
  | .hbm, ⟨24, _⟩ => ⟨S1000000x1, .i32⟩
  | .hbm, ⟨25, _⟩ => ⟨S210000, .f32⟩
  | .hbm, ⟨26, _⟩ => ⟨S30000x7, .f32⟩
  | .hbm, ⟨27, _⟩ => ⟨S7x256x256, .f32⟩
  | .hbm, ⟨28, _⟩ => ⟨S_, .f32⟩
  | .hbm, ⟨29, _⟩ => ⟨S7x256, .f32⟩
  | .hbm, ⟨30, _⟩ => ⟨S7x256x256, .f32⟩
  | .hbm, ⟨31, _⟩ => ⟨S_, .f32⟩
  | .hbm, ⟨32, _⟩ => ⟨S7x256, .f32⟩
  | .hbm, ⟨33, _⟩ => ⟨S7x256x256, .f32⟩
  | .hbm, ⟨34, _⟩ => ⟨S_, .f32⟩
  | .hbm, ⟨35, _⟩ => ⟨S7x256, .f32⟩
  | .hbm, ⟨36, _⟩ => ⟨S30000x256, .f32⟩
  | .hbm, ⟨37, _⟩ => ⟨S_, .f32⟩
  | .hbm, ⟨38, _⟩ => ⟨S100x256, .f32⟩
  | .hbm, ⟨39, _⟩ => ⟨S30000x1, .i32⟩
  | .hbm, ⟨40, _⟩ => ⟨S100x256, .f32⟩
  | .local _ .vmem, ⟨0, _⟩ => ⟨S3000x7, .f32⟩
  | .local _ .vmem, ⟨1, _⟩ => ⟨S3000x7, .f32⟩
  | .local _ .vmem, ⟨2, _⟩ => ⟨S3000x256, .f32⟩
  | .local _ .vmem, ⟨3, _⟩ => ⟨S3000x256, .f32⟩
  | .local _ .vmem, ⟨4, _⟩ => ⟨S7x256, .f32⟩
  | .local _ .vmem, ⟨5, _⟩ => ⟨S256x256, .f32⟩
  | .local _ .vmem, ⟨6, _⟩ => ⟨S256, .f32⟩
  | .local _ .vmem, ⟨7, _⟩ => ⟨S256, .f32⟩
  | .local _ .vmem, ⟨8, _⟩ => ⟨S7x256, .f32⟩
  | .local _ .vmem, ⟨9, _⟩ => ⟨S256x256, .f32⟩
  | .local _ .vmem, ⟨10, _⟩ => ⟨S256, .f32⟩
  | .local _ .vmem, ⟨11, _⟩ => ⟨S256, .f32⟩
  | .local _ .vmem, ⟨12, _⟩ => ⟨S7x256, .f32⟩
  | .local _ .vmem, ⟨13, _⟩ => ⟨S256x256, .f32⟩
  | .local _ .vmem, ⟨14, _⟩ => ⟨S256, .f32⟩
  | .local _ .vmem, ⟨15, _⟩ => ⟨S256, .f32⟩
  | .local _ .vmem, ⟨16, _⟩ => ⟨S3000x256, .f32⟩
  | .local _ .vmem, ⟨17, _⟩ => ⟨S3000x256, .f32⟩
  | _, _ => ⟨S30000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S7x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S3000x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S1000000 : S_.BroadcastsInDim S1000000 (![] : Fin 0 → Fin S1000000.rank)
  bcast_S_S210000 : S_.BroadcastsInDim S210000 (![] : Fin 0 → Fin S210000.rank)
  bcast_S1000000_S1000000x1_0 : S1000000.BroadcastsInDim S1000000x1 (![0] : Fin 1 → Fin S1000000x1.rank)
  shapeCasts_S210000_S30000x7 : S210000.ShapeCasts S30000x7
  shapeCasts_S1792x256_S7x256x256 : S1792x256.ShapeCasts S7x256x256
  reducesTo_S7x256x256_S7x256_d1 : S7x256x256.ReducesTo [1] S7x256
  h_S_ : 0 < S_.numel
  inb_S3000x7_S3000x7_0_0 : ∀ a, (![0, 0] : Fin 2 → Nat) a + S3000x7.size a ≤ S3000x7.size a
  h_S3000x7 : 0 < S3000x7.numel
  shapeCasts_S3000x7_S3000x7 : S3000x7.ShapeCasts S3000x7
  bitsLt_bf16_f32 : FTy.bits .bf16 < FTy.bits .f32
  inb_S3000x256_S3000x256_0_0 : ∀ a, (![0, 0] : Fin 2 → Nat) a + S3000x256.size a ≤ S3000x256.size a
  h_S3000x256 : 0 < S3000x256.numel
  inb_S7x256_S7x256_0_0 : ∀ a, (![0, 0] : Fin 2 → Nat) a + S7x256.size a ≤ S7x256.size a
  h_S7x256 : 0 < S7x256.numel
  shapeCasts_S7x256_S7x256 : S7x256.ShapeCasts S7x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S3000x256 : S1x256.Broadcasts S3000x256
  bcast_S_S100x256 : S_.BroadcastsInDim S100x256 (![] : Fin 0 → Fin S100x256.rank)
  bcast_S30000_S30000x1_0 : S30000.BroadcastsInDim S30000x1 (![0] : Fin 1 → Fin S30000x1.rank)
  scatter_S210000_S1000000x1_S1000000_n_0_0_1_wf : ScatterDims.WF S210000 S1000000x1 S1000000 [] [0] [0] 1
  dot_S3000x7_S7x256_S3000x256_1_0_0_1_n_n_wf : DotDims.WF S3000x7 S7x256 S3000x256 [1] [0] [0] [1] [] []
  dot_S3000x256_S256x256_S3000x256_1_0_0_1_n_n_wf : DotDims.WF S3000x256 S256x256 S3000x256 [1] [0] [0] [1] [] []
  scatter_S100x256_S30000x1_S30000x256_1_0_0_1_wf : ScatterDims.WF S100x256 S30000x1 S30000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x7.size a ≤ S30000x7.size a
  hwx0_0 : ∀ i : grid0.Coords, EltTy.bits .f32 = 32 ∨ (Rect.block (s := S30000x7) S3000x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x256.size a ≤ S30000x256.size a
  hwx0_1 : ∀ i : grid0.Coords, EltTy.bits .f32 = 32 ∨ (Rect.block (s := S30000x256) S3000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x256.size a ≤ S7x256.size a
  hwx0_2 : ∀ i : grid0.Coords, EltTy.bits .f32 = 32 ∨ (Rect.block (s := S7x256) S7x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S7x256.size a ≤ S7x256.size a
  hwx0_6 : ∀ i : grid0.Coords, EltTy.bits .f32 = 32 ∨ (Rect.block (s := S7x256) S7x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S7x256.size a ≤ S7x256.size a
  hwx0_10 : ∀ i : grid0.Coords, EltTy.bits .f32 = 32 ∨ (Rect.block (s := S7x256) S7x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S3000x256.size a ≤ S30000x256.size a
  hwx0_14 : ∀ i : grid0.Coords, EltTy.bits .f32 = 32 ∨ (Rect.block (s := S30000x256) S3000x256.size (cc0_transform_14 i) (hinb0_14 i)).WholeWords (EltTy.packing .f32)

variable [Facts₀]

def scatter_S210000_S1000000x1_S1000000_n_0_0_1 : ScatterDims S210000 S1000000x1 S1000000 where
  updateWindowDims := []
  insertedWindowDims := [0]
  scatterDimsToOperandDims := [0]
  indexVectorDim := 1
  wf := scatter_S210000_S1000000x1_S1000000_n_0_0_1_wf
def dot_S3000x7_S7x256_S3000x256_1_0_0_1_n_n : DotDims S3000x7 S7x256 S3000x256 where
  lhsContracting := [1]
  rhsContracting := [0]
  lhsNonContracting := [0]
  rhsNonContracting := [1]
  lhsBatch := []
  rhsBatch := []
  wf := dot_S3000x7_S7x256_S3000x256_1_0_0_1_n_n_wf
def dot_S3000x256_S256x256_S3000x256_1_0_0_1_n_n : DotDims S3000x256 S256x256 S3000x256 where
  lhsContracting := [1]
  rhsContracting := [0]
  lhsNonContracting := [0]
  rhsNonContracting := [1]
  lhsBatch := []
  rhsBatch := []
  wf := dot_S3000x256_S256x256_S3000x256_1_0_0_1_n_n_wf
def scatter_S100x256_S30000x1_S30000x256_1_0_0_1 : ScatterDims S100x256 S30000x1 S30000x256 where
  updateWindowDims := [1]
  insertedWindowDims := [0]
  scatterDimsToOperandDims := [0]
  indexVectorDim := 1
  wf := scatter_S100x256_S30000x1_S30000x256_1_0_0_1_wf

abbrev win0_0 : Pipeline.Window sig grid0 :=
  Pipeline.Window.ofSpec (Memref.whole main_v6) S3000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S3000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S7x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S7x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S7x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v13) S3000x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S30000x256 : Shape := ⟨2, ![30000, 256]⟩
abbrev S1792x256 : Shape := ⟨2, ![1792, 256]⟩
abbrev S256 : Shape := ⟨1, ![256]⟩
abbrev S256x256 : Shape := ⟨2, ![256, 256]⟩
abbrev S1000000 : Shape := ⟨1, ![1000000]⟩
abbrev S30000 : Shape := ⟨1, ![30000]⟩
abbrev S_ : Shape := ⟨0, ![]⟩
abbrev S210000 : Shape := ⟨1, ![210000]⟩
abbrev S1000000x1 : Shape := ⟨2, ![1000000, 1]⟩
abbrev S30000x7 : Shape := ⟨2, ![30000, 7]⟩
abbrev S30000x7x1 : Shape := ⟨3, ![30000, 7, 1]⟩
abbrev S30000x7x256 : Shape := ⟨3, ![30000, 7, 256]⟩
abbrev S30000x1792 : Shape := ⟨2, ![30000, 1792]⟩
abbrev S1x256 : Shape := ⟨2, ![1, 256]⟩
abbrev S100x256 : Shape := ⟨2, ![100, 256]⟩
abbrev S30000x1 : Shape := ⟨2, ![30000, 1]⟩

abbrev nBuf : Space → Nat
  | .hbm => 76
  | .vmem => 0
  | .smem => 0
  | _ => 0

abbrev bufTy : (tb : Table) → Fin (tcTables nBuf tb) → BufTy
  | .hbm, ⟨0, _⟩ => ⟨S30000x256, .f32⟩
  | .hbm, ⟨1, _⟩ => ⟨S1792x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S1792x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1792x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S1000000, .f32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S30000, .i32⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S_, .f32⟩
  | .hbm, ⟨23, _⟩ => ⟨S210000, .f32⟩
  | .hbm, ⟨24, _⟩ => ⟨S1000000x1, .i32⟩
  | .hbm, ⟨25, _⟩ => ⟨S210000, .f32⟩
  | .hbm, ⟨26, _⟩ => ⟨S30000x7, .f32⟩
  | .hbm, ⟨27, _⟩ => ⟨S30000x7x1, .f32⟩
  | .hbm, ⟨28, _⟩ => ⟨S30000x7x256, .f32⟩
  | .hbm, ⟨29, _⟩ => ⟨S30000x1792, .f32⟩
  | .hbm, ⟨30, _⟩ => ⟨S30000x256, .f32⟩
  | .hbm, ⟨31, _⟩ => ⟨S1x256, .f32⟩
  | .hbm, ⟨32, _⟩ => ⟨S30000x256, .f32⟩
  | .hbm, ⟨33, _⟩ => ⟨S30000x256, .f32⟩
  | .hbm, ⟨34, _⟩ => ⟨S30000x256, .f32⟩
  | .hbm, ⟨35, _⟩ => ⟨S30000x256, .f32⟩
  | .hbm, ⟨36, _⟩ => ⟨S1x256, .f32⟩
  | .hbm, ⟨37, _⟩ => ⟨S30000x256, .f32⟩
  | .hbm, ⟨38, _⟩ => ⟨S30000x256, .f32⟩
  | .hbm, ⟨39, _⟩ => ⟨S_, .f32⟩
  | .hbm, ⟨40, _⟩ => ⟨S30000x256, .f32⟩
  | .hbm, ⟨41, _⟩ => ⟨S30000x256, .f32⟩
  | .hbm, ⟨42, _⟩ => ⟨S30000x7x1, .f32⟩
  | .hbm, ⟨43, _⟩ => ⟨S30000x7x256, .f32⟩
  | .hbm, ⟨44, _⟩ => ⟨S30000x1792, .f32⟩
  | .hbm, ⟨45, _⟩ => ⟨S30000x256, .f32⟩
  | .hbm, ⟨46, _⟩ => ⟨S1x256, .f32⟩
  | .hbm, ⟨47, _⟩ => ⟨S30000x256, .f32⟩
  | .hbm, ⟨48, _⟩ => ⟨S30000x256, .f32⟩
  | .hbm, ⟨49, _⟩ => ⟨S30000x256, .f32⟩
  | .hbm, ⟨50, _⟩ => ⟨S30000x256, .f32⟩
  | .hbm, ⟨51, _⟩ => ⟨S1x256, .f32⟩
  | .hbm, ⟨52, _⟩ => ⟨S30000x256, .f32⟩
  | .hbm, ⟨53, _⟩ => ⟨S30000x256, .f32⟩
  | .hbm, ⟨54, _⟩ => ⟨S_, .f32⟩
  | .hbm, ⟨55, _⟩ => ⟨S30000x256, .f32⟩
  | .hbm, ⟨56, _⟩ => ⟨S30000x256, .f32⟩
  | .hbm, ⟨57, _⟩ => ⟨S30000x7x1, .f32⟩
  | .hbm, ⟨58, _⟩ => ⟨S30000x7x256, .f32⟩
  | .hbm, ⟨59, _⟩ => ⟨S30000x1792, .f32⟩
  | .hbm, ⟨60, _⟩ => ⟨S30000x256, .f32⟩
  | .hbm, ⟨61, _⟩ => ⟨S1x256, .f32⟩
  | .hbm, ⟨62, _⟩ => ⟨S30000x256, .f32⟩
  | .hbm, ⟨63, _⟩ => ⟨S30000x256, .f32⟩
  | .hbm, ⟨64, _⟩ => ⟨S30000x256, .f32⟩
  | .hbm, ⟨65, _⟩ => ⟨S30000x256, .f32⟩
  | .hbm, ⟨66, _⟩ => ⟨S1x256, .f32⟩
  | .hbm, ⟨67, _⟩ => ⟨S30000x256, .f32⟩
  | .hbm, ⟨68, _⟩ => ⟨S30000x256, .f32⟩
  | .hbm, ⟨69, _⟩ => ⟨S_, .f32⟩
  | .hbm, ⟨70, _⟩ => ⟨S30000x256, .f32⟩
  | .hbm, ⟨71, _⟩ => ⟨S30000x256, .f32⟩
  | .hbm, ⟨72, _⟩ => ⟨S_, .f32⟩
  | .hbm, ⟨73, _⟩ => ⟨S100x256, .f32⟩
  | .hbm, ⟨74, _⟩ => ⟨S30000x1, .i32⟩
  | .hbm, ⟨75, _⟩ => ⟨S100x256, .f32⟩
  | _, _ => ⟨S30000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_cst : Ref sig .tc := ⟨.hbm, 54, rfl⟩
abbrev main_call1_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call2_cst : Ref sig .tc := ⟨.hbm, 69, rfl⟩
abbrev main_call2_v0 : Ref sig .tc := ⟨.hbm, 70, rfl⟩
abbrev main_v45 : Ref sig .tc := ⟨.hbm, 71, rfl⟩
abbrev main_cst_0 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S210000 : S_.BroadcastsInDim S210000 (![] : Fin 0 → Fin S210000.rank)
  bcast_S1000000_S1000000x1_0 : S1000000.BroadcastsInDim S1000000x1 (![0] : Fin 1 → Fin S1000000x1.rank)
  shapeCasts_S210000_S30000x7 : S210000.ShapeCasts S30000x7
  bcast_S30000x7_S30000x7x1_0_1 : S30000x7.BroadcastsInDim S30000x7x1 (![0, 1] : Fin 2 → Fin S30000x7x1.rank)
  bcast_S30000x7x1_S30000x7x256_0_1_2 : S30000x7x1.BroadcastsInDim S30000x7x256 (![0, 1, 2] : Fin 3 → Fin S30000x7x256.rank)
  shapeCasts_S30000x7x256_S30000x1792 : S30000x7x256.ShapeCasts S30000x1792
  bcast_S256_S1x256_1 : S256.BroadcastsInDim S1x256 (![1] : Fin 1 → Fin S1x256.rank)
  bcast_S1x256_S30000x256_0_1 : S1x256.BroadcastsInDim S30000x256 (![0, 1] : Fin 2 → Fin S30000x256.rank)
  bcast_S_S30000x256 : S_.BroadcastsInDim S30000x256 (![] : Fin 0 → Fin S30000x256.rank)
  bcast_S_S100x256 : S_.BroadcastsInDim S100x256 (![] : Fin 0 → Fin S100x256.rank)
  bcast_S30000_S30000x1_0 : S30000.BroadcastsInDim S30000x1 (![0] : Fin 1 → Fin S30000x1.rank)
  scatter_S210000_S1000000x1_S1000000_n_0_0_1_wf : ScatterDims.WF S210000 S1000000x1 S1000000 [] [0] [0] 1
  dot_S30000x1792_S1792x256_S30000x256_1_0_0_1_n_n_wf : DotDims.WF S30000x1792 S1792x256 S30000x256 [1] [0] [0] [1] [] []
  dot_S30000x256_S256x256_S30000x256_1_0_0_1_n_n_wf : DotDims.WF S30000x256 S256x256 S30000x256 [1] [0] [0] [1] [] []
  scatter_S100x256_S30000x1_S30000x256_1_0_0_1_wf : ScatterDims.WF S100x256 S30000x1 S30000x256 [1] [0] [0] 1

variable [Facts₀]

def scatter_S210000_S1000000x1_S1000000_n_0_0_1 : ScatterDims S210000 S1000000x1 S1000000 where
  updateWindowDims := []
  insertedWindowDims := [0]
  scatterDimsToOperandDims := [0]
  indexVectorDim := 1
  wf := scatter_S210000_S1000000x1_S1000000_n_0_0_1_wf
def dot_S30000x1792_S1792x256_S30000x256_1_0_0_1_n_n : DotDims S30000x1792 S1792x256 S30000x256 where
  lhsContracting := [1]
  rhsContracting := [0]
  lhsNonContracting := [0]
  rhsNonContracting := [1]
  lhsBatch := []
  rhsBatch := []
  wf := dot_S30000x1792_S1792x256_S30000x256_1_0_0_1_n_n_wf
def dot_S30000x256_S256x256_S30000x256_1_0_0_1_n_n : DotDims S30000x256 S256x256 S30000x256 where
  lhsContracting := [1]
  rhsContracting := [0]
  lhsNonContracting := [0]
  rhsNonContracting := [1]
  lhsBatch := []
  rhsBatch := []
  wf := dot_S30000x256_S256x256_S30000x256_1_0_0_1_n_n_wf
def scatter_S100x256_S30000x1_S30000x256_1_0_0_1 : ScatterDims S100x256 S30000x1 S30000x256 where
  updateWindowDims := [1]
  insertedWindowDims := [0]
  scatterDimsToOperandDims := [0]
  indexVectorDim := 1
  wf := scatter_S100x256_S30000x1_S30000x256_1_0_0_1_wf

class Facts : Prop extends Facts₀ where

variable [Facts]
-- ==== Proof.RowLayer.lean ====
/-
  One layer of the network on ONE node (one row of the feature matrix), in the two arrangements the two programs use.

  A node carries seven per-relation degrees `d r` and a feature row `h k` (256 entries). One layer sends the row to
      q ↦ max (((u q + b q) + ∑ k, h k * S k q) + c q) 0,
  where the message term `u q` is written in two ways:
    • wide:   ∑ over all 1792 rows k of the weight matrix W of  d (k / 256) * W k q   (each degree repeated 256 times),
    • narrow: ∑ over the 7 relations r of  d r * (0 + ∑ j, W (256 r + j) q)             (the weight rows summed first).
  The two agree by distributivity, x * (a + b) = x * a + x * b. On the extended reals that law fails at the infinities,
  so the equality is proved for FINITE degrees and weights: there both sides are coercions of one real number, and over
  the reals the step is `Finset.mul_sum` after splitting the index k = 256 r + j.
-/
import Idealize.ShloMosaic.PureOps.Ideal

noncomputable section

namespace Cert.Proof.Spec

open Finset

/-- The coercion of a finite real sum is the sum of the coercions. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A finite sum of real entries, added to zero, is a real number. -/
theorem exists_real_zero_add_sum {ι : Type} (s : Finset ι) (u : ι → EReal) (hu : ∀ i, ∃ x : ℝ, u i = (x : EReal)) :
    ∃ x : ℝ, (0 : EReal) + ∑ i ∈ s, u i = (x : EReal) := by
  choose f hf using hu
  exact ⟨∑ i ∈ s, f i, by simp only [hf, zero_add, coe_sum]⟩

/-- Row `k` of the 1792 weight rows belongs to relation `k / 256`. -/
abbrev relOf (k : Fin 1792) : Fin 7 := ⟨k.val / 256, by have := k.isLt; omega⟩
/-- Row `j` of relation `r`'s block of 256 weight rows. -/
abbrev rowOf (r : Fin 7) (j : Fin 256) : Fin 1792 := ⟨r.val * 256 + j.val, by have := r.isLt; have := j.isLt; omega⟩

/-- Over the reals: summing over all 1792 rows is summing relation by relation, and the degree factors out of a block. -/
theorem real_blocks (f : Fin 7 → ℝ) (g : Fin 1792 → ℝ) :
    ∑ k : Fin 1792, f (relOf k) * g k = ∑ r : Fin 7, f r * ∑ j : Fin 256, g (rowOf r j) := by
  rw [← Equiv.sum_comp (finProdFinEquiv : Fin 7 × Fin 256 ≃ Fin 1792), Fintype.sum_prod_type]
  refine Finset.sum_congr rfl fun r _ => ?_
  rw [Finset.mul_sum]
  refine Finset.sum_congr rfl fun j _ => ?_
  have hv : ((finProdFinEquiv : Fin 7 × Fin 256 ≃ Fin 1792) (r, j)).val = j.val + 256 * r.val := rfl
  have h1 : relOf ((finProdFinEquiv : Fin 7 × Fin 256 ≃ Fin 1792) (r, j)) = r :=
    Fin.ext (by show _ / 256 = r.val; rw [hv]; have := j.isLt; omega)
  have h2 : (finProdFinEquiv : Fin 7 × Fin 256 ≃ Fin 1792) (r, j) = rowOf r j :=
    Fin.ext (by show _ = r.val * 256 + j.val; rw [hv]; omega)
  rw [h1, h2]

/-- The same on the extended reals, for finite degrees and finite weights. -/
theorem ereal_blocks (d : Fin 7 → EReal) (w : Fin 1792 → EReal)
    (hd : ∀ r, ∃ x : ℝ, d r = (x : EReal)) (hw : ∀ k, ∃ y : ℝ, w k = (y : EReal)) :
    ∑ k : Fin 1792, d (relOf k) * w k = ∑ r : Fin 7, d r * (0 + ∑ j : Fin 256, w (rowOf r j)) := by
  choose f hf using hd
  choose g hg using hw
  simp only [hf, hg, zero_add, ← EReal.coe_mul, ← coe_sum]
  exact congrArg _ (real_blocks f g)

/-- One layer on one node, the message term summed relation by relation against pre-summed weights `ws`. -/
def rowLayer (d : Fin 7 → EReal) (h : Fin 256 → EReal) (ws : Fin 7 → Fin 256 → EReal) (S : Fin 256 → Fin 256 → EReal)
    (b c : Fin 256 → EReal) : Fin 256 → EReal :=
  fun q => max ((((∑ r : Fin 7, d r * ws r q) + b q) + ∑ k : Fin 256, h k * S k q) + c q) 0

/-- One layer on one node, the message term summed over all 1792 weight rows. -/
def rowLayerWide (d : Fin 7 → EReal) (h : Fin 256 → EReal) (W : Fin 1792 → Fin 256 → EReal) (S : Fin 256 → Fin 256 → EReal)
    (b c : Fin 256 → EReal) : Fin 256 → EReal :=
  fun q => max ((((∑ k : Fin 1792, d (relOf k) * W k q) + b q) + ∑ k : Fin 256, h k * S k q) + c q) 0

/-- The weight rows of each relation summed, from zero: the narrow arrangement's weights. -/
def blockSums (W : Fin 1792 → Fin 256 → EReal) : Fin 7 → Fin 256 → EReal :=
  fun r q => 0 + ∑ j : Fin 256, W (rowOf r j) q

/-- For finite degrees and weights the two arrangements of a layer are one function. -/
theorem rowLayerWide_eq (d : Fin 7 → EReal) (h : Fin 256 → EReal) (W : Fin 1792 → Fin 256 → EReal)
    (S : Fin 256 → Fin 256 → EReal) (b c : Fin 256 → EReal)
    (hd : ∀ r, ∃ x : ℝ, d r = (x : EReal)) (hW : ∀ k q, ∃ y : ℝ, W k q = (y : EReal)) :
    rowLayerWide d h W S b c = rowLayer d h (blockSums W) S b c := by
  funext q
  unfold rowLayerWide rowLayer blockSums
  rw [ereal_blocks d (fun k => W k q) hd (fun k => hW k q)]

/-- The three layers on one node, in the narrow arrangement. -/
def net (d : Fin 7 → EReal) (x : Fin 256 → EReal)
    (ws0 : Fin 7 → Fin 256 → EReal) (S0 : Fin 256 → Fin 256 → EReal) (b0 c0 : Fin 256 → EReal)
    (ws1 : Fin 7 → Fin 256 → EReal) (S1 : Fin 256 → Fin 256 → EReal) (b1 c1 : Fin 256 → EReal)
    (ws2 : Fin 7 → Fin 256 → EReal) (S2 : Fin 256 → Fin 256 → EReal) (b2 c2 : Fin 256 → EReal) : Fin 256 → EReal :=
  rowLayer d (rowLayer d (rowLayer d x ws0 S0 b0 c0) ws1 S1 b1 c1) ws2 S2 b2 c2

/-- The three layers on one node, in the wide arrangement. -/
def netWide (d : Fin 7 → EReal) (x : Fin 256 → EReal)
    (W0 : Fin 1792 → Fin 256 → EReal) (S0 : Fin 256 → Fin 256 → EReal) (b0 c0 : Fin 256 → EReal)
    (W1 : Fin 1792 → Fin 256 → EReal) (S1 : Fin 256 → Fin 256 → EReal) (b1 c1 : Fin 256 → EReal)
    (W2 : Fin 1792 → Fin 256 → EReal) (S2 : Fin 256 → Fin 256 → EReal) (b2 c2 : Fin 256 → EReal) : Fin 256 → EReal :=
  rowLayerWide d (rowLayerWide d (rowLayerWide d x W0 S0 b0 c0) W1 S1 b1 c1) W2 S2 b2 c2

/-- For finite degrees and weights the two arrangements of the network are one function. The hidden rows need no
    finiteness: they enter both sides through the same sums. -/
theorem netWide_eq (d : Fin 7 → EReal) (x : Fin 256 → EReal)
    (W0 : Fin 1792 → Fin 256 → EReal) (S0 : Fin 256 → Fin 256 → EReal) (b0 c0 : Fin 256 → EReal)
    (W1 : Fin 1792 → Fin 256 → EReal) (S1 : Fin 256 → Fin 256 → EReal) (b1 c1 : Fin 256 → EReal)
    (W2 : Fin 1792 → Fin 256 → EReal) (S2 : Fin 256 → Fin 256 → EReal) (b2 c2 : Fin 256 → EReal)
    (hd : ∀ r, ∃ y : ℝ, d r = (y : EReal))
    (h0 : ∀ k q, ∃ y : ℝ, W0 k q = (y : EReal)) (h1 : ∀ k q, ∃ y : ℝ, W1 k q = (y : EReal))
    (h2 : ∀ k q, ∃ y : ℝ, W2 k q = (y : EReal)) :
    netWide d x W0 S0 b0 c0 W1 S1 b1 c1 W2 S2 b2 c2
      = net d x (blockSums W0) S0 b0 c0 (blockSums W1) S1 b1 c1 (blockSums W2) S2 b2 c2 := by
  unfold netWide net
  rw [rowLayerWide_eq d x W0 S0 b0 c0 hd h0, rowLayerWide_eq d _ W1 S1 b1 c1 hd h1, rowLayerWide_eq d _ W2 S2 b2 c2 hd h2]

end Cert.Proof.Spec

end
-- ==== Proof.RefLayers.lean ====
/-
  The reference program read node by node. Its node features after each layer, at node `p` and feature `q`, are the
  wide arrangement of the layer (`rowLayerWide`) applied to that node's seven degrees and to the previous layer's feature
  row of the same node: the repeated-degree matrix [30000, 1792] the reference multiplies by the weights holds, in
  column `k`, the degree of relation `k / 256`, because the column index of the reshape [30000, 7, 256] → [30000, 1792]
  is 256 r + j. The degrees themselves (a scatter-add of the edge weights) stay the one term both programs compute.
-/
import proofs.«148424_j10780367913281_1_alg».proof.Proof.Gen.ReferenceIdeal.Read
import proofs.«148424_j10780367913281_1_alg».proof.Proof.RowLayer

noncomputable section

namespace Cert.Proof.RefLayers

open Cert.ReferenceIdeal Cert.ReferenceIdeal.Gen Cert.ReferenceIdeal.Read Idealize.ShloMosaic Idealize.ShloMosaic.ValueIdx
open Cert.Proof.Spec

/-- The wide message term reads the degree of the row's relation: row `k` of the first layer's repeated-degree matrix is the degree at relation `k / 256`. -/
theorem upd1_idx (p : Fin 30000) (q : Fin 256) (k : Fin 1792) :
    idx_main_v7 (idx_main_v8 (idx_main_v9 (lidx_main_v10 (ix2 p q) k))) = ix2 p (relOf k) :=
  funext fun a => Fin.ext (by
    match a with
    | ⟨0, _⟩ => show (p.val * 1792 + k.val) / 1792 = p.val; have := k.isLt; omega
    | ⟨1, _⟩ => show (p.val * 1792 + k.val) / 256 % 7 = k.val / 256; have := k.isLt; omega)
theorem wrow1_idx (p : Fin 30000) (q : Fin 256) (k : Fin 1792) : ridx_main_v10 (ix2 p q) k = ix2 k q :=
  funext fun a => Fin.ext (by match a with | ⟨0, _⟩ => rfl | ⟨1, _⟩ => rfl)
theorem bias1_idx (p : Fin 30000) (q : Fin 256) : idx_main_v11 (idx_main_v12 (ix2 p q)) = ix1 q :=
  funext fun a => Fin.ext (by match a with | ⟨0, _⟩ => rfl)
theorem hrow1_idx (p : Fin 30000) (q : Fin 256) (k : Fin 256) : lidx_main_v14 (ix2 p q) k = ix2 p k :=
  funext fun a => Fin.ext (by match a with | ⟨0, _⟩ => rfl | ⟨1, _⟩ => rfl)
theorem srow1_idx (p : Fin 30000) (q : Fin 256) (k : Fin 256) : ridx_main_v14 (ix2 p q) k = ix2 k q :=
  funext fun a => Fin.ext (by match a with | ⟨0, _⟩ => rfl | ⟨1, _⟩ => rfl)
theorem cbias1_idx (p : Fin 30000) (q : Fin 256) : idx_main_v16 (idx_main_v17 (ix2 p q)) = ix1 q :=
  funext fun a => Fin.ext (by match a with | ⟨0, _⟩ => rfl)

/-- Layer 1 of the reference at node `p`, feature `q`: the wide arrangement of the layer on that node's degrees and
    on the previous layer's row of that node. -/
theorem layer1 (x0 : (⟨S30000x256, .f32⟩ : BufTy).Contents (Elt Ideal)) (x1 : (⟨S1792x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x13 : (⟨S1000000, .f32⟩ : BufTy).Contents (Elt Ideal)) (x15 : (⟨S1000000, .i32⟩ : BufTy).Contents (Elt Ideal)) (x16 : (⟨S1000000, .i32⟩ : BufTy).Contents (Elt Ideal)) (p : Fin 30000) (q : Fin 256) :
    val_main_v19 (F := Ideal) x0 x1 x2 x3 x4 x13 x15 x16 (ix2 p q)
      = rowLayerWide (fun r => val_main_v6 (F := Ideal) x13 x15 x16 (ix2 p r)) (fun k => x0 (ix2 p k))
          (fun k q' => x1 (ix2 k q')) (fun k q' => x3 (ix2 k q')) (fun q' => x2 (ix1 q')) (fun q' => x4 (ix1 q')) q := by
  rw [val_main_v19_apply, val_main_v18_apply, val_main_v15_apply, val_main_v13_apply, val_main_v10_apply,
    val_main_v12_apply, val_main_v11_apply, val_main_v14_apply, val_main_v17_apply, val_main_v16_apply,
    val_main_call0_v0_apply, val_main_call0_cst_apply]
  simp only [val_main_v9_apply, val_main_v8_apply, val_main_v7_apply, upd1_idx, wrow1_idx, bias1_idx,
    hrow1_idx, srow1_idx, cbias1_idx]
  unfold rowLayerWide
  simp only [Ideal.addf_def, Ideal.maximumf_def, Ideal.ofBits_def, Ideal.ofBits_zero_f32]

/-- The wide message term reads the degree of the row's relation: row `k` of the second layer's repeated-degree matrix is the degree at relation `k / 256`. -/
theorem upd2_idx (p : Fin 30000) (q : Fin 256) (k : Fin 1792) :
    idx_main_v20 (idx_main_v21 (idx_main_v22 (lidx_main_v23 (ix2 p q) k))) = ix2 p (relOf k) :=
  funext fun a => Fin.ext (by
    match a with
    | ⟨0, _⟩ => show (p.val * 1792 + k.val) / 1792 = p.val; have := k.isLt; omega
    | ⟨1, _⟩ => show (p.val * 1792 + k.val) / 256 % 7 = k.val / 256; have := k.isLt; omega)
theorem wrow2_idx (p : Fin 30000) (q : Fin 256) (k : Fin 1792) : ridx_main_v23 (ix2 p q) k = ix2 k q :=
  funext fun a => Fin.ext (by match a with | ⟨0, _⟩ => rfl | ⟨1, _⟩ => rfl)
theorem bias2_idx (p : Fin 30000) (q : Fin 256) : idx_main_v24 (idx_main_v25 (ix2 p q)) = ix1 q :=
  funext fun a => Fin.ext (by match a with | ⟨0, _⟩ => rfl)
theorem hrow2_idx (p : Fin 30000) (q : Fin 256) (k : Fin 256) : lidx_main_v27 (ix2 p q) k = ix2 p k :=
  funext fun a => Fin.ext (by match a with | ⟨0, _⟩ => rfl | ⟨1, _⟩ => rfl)
theorem srow2_idx (p : Fin 30000) (q : Fin 256) (k : Fin 256) : ridx_main_v27 (ix2 p q) k = ix2 k q :=
  funext fun a => Fin.ext (by match a with | ⟨0, _⟩ => rfl | ⟨1, _⟩ => rfl)
theorem cbias2_idx (p : Fin 30000) (q : Fin 256) : idx_main_v29 (idx_main_v30 (ix2 p q)) = ix1 q :=
  funext fun a => Fin.ext (by match a with | ⟨0, _⟩ => rfl)

/-- Layer 2 of the reference at node `p`, feature `q`: the wide arrangement of the layer on that node's degrees and
    on the previous layer's row of that node. -/
theorem layer2 (x0 : (⟨S30000x256, .f32⟩ : BufTy).Contents (Elt Ideal)) (x1 : (⟨S1792x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S1792x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x13 : (⟨S1000000, .f32⟩ : BufTy).Contents (Elt Ideal)) (x15 : (⟨S1000000, .i32⟩ : BufTy).Contents (Elt Ideal)) (x16 : (⟨S1000000, .i32⟩ : BufTy).Contents (Elt Ideal)) (p : Fin 30000) (q : Fin 256) :
    val_main_v32 (F := Ideal) x0 x1 x2 x3 x4 x5 x6 x7 x8 x13 x15 x16 (ix2 p q)
      = rowLayerWide (fun r => val_main_v6 (F := Ideal) x13 x15 x16 (ix2 p r)) (fun k => val_main_v19 (F := Ideal) x0 x1 x2 x3 x4 x13 x15 x16 (ix2 p k))
          (fun k q' => x5 (ix2 k q')) (fun k q' => x7 (ix2 k q')) (fun q' => x6 (ix1 q')) (fun q' => x8 (ix1 q')) q := by
  rw [val_main_v32_apply, val_main_v31_apply, val_main_v28_apply, val_main_v26_apply, val_main_v23_apply,
    val_main_v25_apply, val_main_v24_apply, val_main_v27_apply, val_main_v30_apply, val_main_v29_apply,
    val_main_call1_v0_apply, val_main_call1_cst_apply]
  simp only [val_main_v22_apply, val_main_v21_apply, val_main_v20_apply, upd2_idx, wrow2_idx, bias2_idx,
    hrow2_idx, srow2_idx, cbias2_idx]
  unfold rowLayerWide
  simp only [Ideal.addf_def, Ideal.maximumf_def, Ideal.ofBits_def, Ideal.ofBits_zero_f32]

/-- The wide message term reads the degree of the row's relation: row `k` of the third layer's repeated-degree matrix is the degree at relation `k / 256`. -/
theorem upd3_idx (p : Fin 30000) (q : Fin 256) (k : Fin 1792) :
    idx_main_v33 (idx_main_v34 (idx_main_v35 (lidx_main_v36 (ix2 p q) k))) = ix2 p (relOf k) :=
  funext fun a => Fin.ext (by
    match a with
    | ⟨0, _⟩ => show (p.val * 1792 + k.val) / 1792 = p.val; have := k.isLt; omega
    | ⟨1, _⟩ => show (p.val * 1792 + k.val) / 256 % 7 = k.val / 256; have := k.isLt; omega)
theorem wrow3_idx (p : Fin 30000) (q : Fin 256) (k : Fin 1792) : ridx_main_v36 (ix2 p q) k = ix2 k q :=
  funext fun a => Fin.ext (by match a with | ⟨0, _⟩ => rfl | ⟨1, _⟩ => rfl)
theorem bias3_idx (p : Fin 30000) (q : Fin 256) : idx_main_v37 (idx_main_v38 (ix2 p q)) = ix1 q :=
  funext fun a => Fin.ext (by match a with | ⟨0, _⟩ => rfl)
theorem hrow3_idx (p : Fin 30000) (q : Fin 256) (k : Fin 256) : lidx_main_v40 (ix2 p q) k = ix2 p k :=
  funext fun a => Fin.ext (by match a with | ⟨0, _⟩ => rfl | ⟨1, _⟩ => rfl)
theorem srow3_idx (p : Fin 30000) (q : Fin 256) (k : Fin 256) : ridx_main_v40 (ix2 p q) k = ix2 k q :=
  funext fun a => Fin.ext (by match a with | ⟨0, _⟩ => rfl | ⟨1, _⟩ => rfl)
theorem cbias3_idx (p : Fin 30000) (q : Fin 256) : idx_main_v42 (idx_main_v43 (ix2 p q)) = ix1 q :=
  funext fun a => Fin.ext (by match a with | ⟨0, _⟩ => rfl)

/-- Layer 3 of the reference at node `p`, feature `q`: the wide arrangement of the layer on that node's degrees and
    on the previous layer's row of that node. -/
theorem layer3 (x0 : (⟨S30000x256, .f32⟩ : BufTy).Contents (Elt Ideal)) (x1 : (⟨S1792x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S1792x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S1792x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S1000000, .f32⟩ : BufTy).Contents (Elt Ideal)) (x15 : (⟨S1000000, .i32⟩ : BufTy).Contents (Elt Ideal)) (x16 : (⟨S1000000, .i32⟩ : BufTy).Contents (Elt Ideal)) (p : Fin 30000) (q : Fin 256) :
    val_main_v45 (F := Ideal) x0 x1 x2 x3 x4 x5 x6 x7 x8 x9 x10 x11 x12 x13 x15 x16 (ix2 p q)
      = rowLayerWide (fun r => val_main_v6 (F := Ideal) x13 x15 x16 (ix2 p r)) (fun k => val_main_v32 (F := Ideal) x0 x1 x2 x3 x4 x5 x6 x7 x8 x13 x15 x16 (ix2 p k))
          (fun k q' => x9 (ix2 k q')) (fun k q' => x11 (ix2 k q')) (fun q' => x10 (ix1 q')) (fun q' => x12 (ix1 q')) q := by
  rw [val_main_v45_apply, val_main_v44_apply, val_main_v41_apply, val_main_v39_apply, val_main_v36_apply,
    val_main_v38_apply, val_main_v37_apply, val_main_v40_apply, val_main_v43_apply, val_main_v42_apply,
    val_main_call2_v0_apply, val_main_call2_cst_apply]
  simp only [val_main_v35_apply, val_main_v34_apply, val_main_v33_apply, upd3_idx, wrow3_idx, bias3_idx,
    hrow3_idx, srow3_idx, cbias3_idx]
  unfold rowLayerWide
  simp only [Ideal.addf_def, Ideal.maximumf_def, Ideal.ofBits_def, Ideal.ofBits_zero_f32]

/-- The degrees of node `p`, as the reference computes them. -/
abbrev degRow (x13 : (⟨S1000000, .f32⟩ : BufTy).Contents (Elt Ideal)) (x15 : (⟨S1000000, .i32⟩ : BufTy).Contents (Elt Ideal)) (x16 : (⟨S1000000, .i32⟩ : BufTy).Contents (Elt Ideal)) (p : Fin 30000) : Fin 7 → EReal :=
  fun r => val_main_v6 (F := Ideal) x13 x15 x16 (ix2 p r)

/-- THE REFERENCE'S NODE FEATURES: at node `p`, feature `q`, the three layers in the wide arrangement on that node's
    degrees and input row. -/
theorem node_feature (x0 : (⟨S30000x256, .f32⟩ : BufTy).Contents (Elt Ideal)) (x1 : (⟨S1792x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S1792x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S1792x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S1000000, .f32⟩ : BufTy).Contents (Elt Ideal)) (x15 : (⟨S1000000, .i32⟩ : BufTy).Contents (Elt Ideal)) (x16 : (⟨S1000000, .i32⟩ : BufTy).Contents (Elt Ideal)) (p : Fin 30000) (q : Fin 256) :
    val_main_v45 (F := Ideal) x0 x1 x2 x3 x4 x5 x6 x7 x8 x9 x10 x11 x12 x13 x15 x16 (ix2 p q)
      = netWide (degRow x13 x15 x16 p) (fun k => x0 (ix2 p k))
          (fun k q' => x1 (ix2 k q')) (fun k q' => x3 (ix2 k q')) (fun q' => x2 (ix1 q')) (fun q' => x4 (ix1 q'))
          (fun k q' => x5 (ix2 k q')) (fun k q' => x7 (ix2 k q')) (fun q' => x6 (ix1 q')) (fun q' => x8 (ix1 q'))
          (fun k q' => x9 (ix2 k q')) (fun k q' => x11 (ix2 k q')) (fun q' => x10 (ix1 q')) (fun q' => x12 (ix1 q')) q := by
  have e1 : (fun k => val_main_v19 (F := Ideal) x0 x1 x2 x3 x4 x13 x15 x16 (ix2 p k)) = _ :=
    funext fun k => layer1 x0 x1 x2 x3 x4 x13 x15 x16 p k
  have e2 : (fun k => val_main_v32 (F := Ideal) x0 x1 x2 x3 x4 x5 x6 x7 x8 x13 x15 x16 (ix2 p k)) = _ :=
    funext fun k => layer2 x0 x1 x2 x3 x4 x5 x6 x7 x8 x13 x15 x16 p k
  rw [layer3, e2, e1]
  rfl

end Cert.Proof.RefLayers

end
-- ==== Proof.KernelBlock.lean ====
/-
  The kernel's arithmetic on one block of 3000 nodes, read at one node and one output column.

  The body computes three layers. A layer takes the block of per-relation degrees d [3000, 7], the block of
  features h [3000, 256], pre-summed weights w [7, 256], a self-loop matrix S [256, 256] and two bias vectors b, c
  [256], and produces  max (((d · w + b) + h · S) + c) 0,  the two products being matrix products into a zero
  accumulator and the bias vectors broadcast down the rows. On the extended reals the changes of format are the
  identity, a matrix product read at (p, q) is the sum over its contraction index, and a broadcast row read at
  (p, q) is the vector at q: so a layer read at (p, q) is the one-node layer of row p at column q, and the body is
  the three-layer network of row p.
-/
import proofs.«148424_j10780367913281_1_alg».proof.Proof.Gen.KernelIdeal.Skeleton
import proofs.«148424_j10780367913281_1_alg».proof.Proof.RowLayer
import Idealize.ShloMosaic.Lib.ValueIdx
import Idealize.ShloMosaic.Lib.Pipeline.Value
import Idealize.ShloMosaic.Lib.ValueLayout
import Idealize.ShloMosaic.PureOps.Ideal.Laws

noncomputable section

namespace Cert.Proof.KernelBlock

open Idealize.ShloMosaic Idealize.ShloMosaic.ValueIdx Idealize.ShloMosaic.TcCoe
open Cert.KernelIdeal Cert.KernelIdeal.Gen Cert.Proof.Spec

/-! ## The degree product: contraction over the seven relations -/

theorem degLhs0 (i : S3000x256.Idx) (k : dot_S3000x7_S7x256_S3000x256_1_0_0_1_n_n.contr.Idx) :
    (dot_S3000x7_S7x256_S3000x256_1_0_0_1_n_n.lhsIdx i k 0).val = (i 0).val := by
  unfold DotDims.lhsIdx
  rw [dif_neg (show ¬(0 : Fin S3000x7.rank) ∈ dot_S3000x7_S7x256_S3000x256_1_0_0_1_n_n.lhsBatch by decide),
    dif_pos (show (0 : Fin S3000x7.rank) ∈ dot_S3000x7_S7x256_S3000x256_1_0_0_1_n_n.lhsNonContracting by decide)]
  rfl
theorem degLhs1 (i : S3000x256.Idx) (k : dot_S3000x7_S7x256_S3000x256_1_0_0_1_n_n.contr.Idx) :
    (dot_S3000x7_S7x256_S3000x256_1_0_0_1_n_n.lhsIdx i k 1).val = (k ⟨0, by decide⟩).val :=
  dot_S3000x7_S7x256_S3000x256_1_0_0_1_n_n.lhsIdx_val_of_single rfl i k
theorem degRhs0 (i : S3000x256.Idx) (k : dot_S3000x7_S7x256_S3000x256_1_0_0_1_n_n.contr.Idx) :
    (dot_S3000x7_S7x256_S3000x256_1_0_0_1_n_n.rhsIdx i k 0).val = (k ⟨0, by decide⟩).val :=
  dot_S3000x7_S7x256_S3000x256_1_0_0_1_n_n.rhsIdx_val_of_single rfl i k
theorem degRhs1 (i : S3000x256.Idx) (k : dot_S3000x7_S7x256_S3000x256_1_0_0_1_n_n.contr.Idx) :
    (dot_S3000x7_S7x256_S3000x256_1_0_0_1_n_n.rhsIdx i k 1).val = (i 1).val := by
  unfold DotDims.rhsIdx
  rw [dif_neg (show ¬(1 : Fin S7x256.rank) ∈ dot_S3000x7_S7x256_S3000x256_1_0_0_1_n_n.rhsBatch by decide),
    dif_pos (show (1 : Fin S7x256.rank) ∈ dot_S3000x7_S7x256_S3000x256_1_0_0_1_n_n.rhsNonContracting by decide)]
  rfl

/-- The degree product into a zero accumulator, at row p and column q: the sum over the seven relations. -/
theorem degMatmul_apply (d : FVec Ideal S3000x7 .bf16) (w : FVec Ideal S7x256 .bf16) (p : Fin 3000) (q : Fin 256) :
    matmul dot_S3000x7_S7x256_S3000x256_1_0_0_1_n_n none d w (constant (F := Ideal) S3000x256 .f32 0x00000000#32) (ix2 p q)
      = ∑ r : Fin 7, d (ix2 p r) * w (ix2 r q) := by
  show FloatOps.matmul dot_S3000x7_S7x256_S3000x256_1_0_0_1_n_n none d w (constant (F := Ideal) S3000x256 .f32 0x00000000#32) (ix2 p q) = _
  rw [Ideal.matmul_constant_zero_apply,
    ← Equiv.sum_comp (contrEquiv1 dot_S3000x7_S7x256_S3000x256_1_0_0_1_n_n 7 rfl rfl).symm]
  refine Finset.sum_congr rfl fun k _ => ?_
  have hk := contrEquiv1_symm_val dot_S3000x7_S7x256_S3000x256_1_0_0_1_n_n 7 rfl rfl k
  have el : dot_S3000x7_S7x256_S3000x256_1_0_0_1_n_n.lhsIdx (ix2 p q)
      ((contrEquiv1 dot_S3000x7_S7x256_S3000x256_1_0_0_1_n_n 7 rfl rfl).symm k) = ix2 p k :=
    funext fun a => Fin.ext (by
      match a with
      | ⟨0, _⟩ => exact degLhs0 _ _
      | ⟨1, _⟩ => exact (degLhs1 _ _).trans hk)
  have er : dot_S3000x7_S7x256_S3000x256_1_0_0_1_n_n.rhsIdx (ix2 p q)
      ((contrEquiv1 dot_S3000x7_S7x256_S3000x256_1_0_0_1_n_n 7 rfl rfl).symm k) = ix2 k q :=
    funext fun a => Fin.ext (by
      match a with
      | ⟨0, _⟩ => exact (degRhs0 _ _).trans hk
      | ⟨1, _⟩ => exact degRhs1 _ _)
  rw [el, er]

/-! ## The self-loop product: contraction over the 256 features -/

theorem selfLhs0 (i : S3000x256.Idx) (k : dot_S3000x256_S256x256_S3000x256_1_0_0_1_n_n.contr.Idx) :
    (dot_S3000x256_S256x256_S3000x256_1_0_0_1_n_n.lhsIdx i k 0).val = (i 0).val := by
  unfold DotDims.lhsIdx
  rw [dif_neg (show ¬(0 : Fin S3000x256.rank) ∈ dot_S3000x256_S256x256_S3000x256_1_0_0_1_n_n.lhsBatch by decide),
    dif_pos (show (0 : Fin S3000x256.rank) ∈ dot_S3000x256_S256x256_S3000x256_1_0_0_1_n_n.lhsNonContracting by decide)]
  rfl
theorem selfLhs1 (i : S3000x256.Idx) (k : dot_S3000x256_S256x256_S3000x256_1_0_0_1_n_n.contr.Idx) :
    (dot_S3000x256_S256x256_S3000x256_1_0_0_1_n_n.lhsIdx i k 1).val = (k ⟨0, by decide⟩).val :=
  dot_S3000x256_S256x256_S3000x256_1_0_0_1_n_n.lhsIdx_val_of_single rfl i k
theorem selfRhs0 (i : S3000x256.Idx) (k : dot_S3000x256_S256x256_S3000x256_1_0_0_1_n_n.contr.Idx) :
    (dot_S3000x256_S256x256_S3000x256_1_0_0_1_n_n.rhsIdx i k 0).val = (k ⟨0, by decide⟩).val :=
  dot_S3000x256_S256x256_S3000x256_1_0_0_1_n_n.rhsIdx_val_of_single rfl i k
theorem selfRhs1 (i : S3000x256.Idx) (k : dot_S3000x256_S256x256_S3000x256_1_0_0_1_n_n.contr.Idx) :
    (dot_S3000x256_S256x256_S3000x256_1_0_0_1_n_n.rhsIdx i k 1).val = (i 1).val := by
  unfold DotDims.rhsIdx
  rw [dif_neg (show ¬(1 : Fin S256x256.rank) ∈ dot_S3000x256_S256x256_S3000x256_1_0_0_1_n_n.rhsBatch by decide),
    dif_pos (show (1 : Fin S256x256.rank) ∈ dot_S3000x256_S256x256_S3000x256_1_0_0_1_n_n.rhsNonContracting by decide)]
  rfl

/-- The self-loop product into a zero accumulator, at row p and column q: the sum over the 256 features. -/
theorem selfMatmul_apply (h : FVec Ideal S3000x256 .bf16) (S : FVec Ideal S256x256 .bf16) (p : Fin 3000) (q : Fin 256) :
    matmul dot_S3000x256_S256x256_S3000x256_1_0_0_1_n_n none h S (constant (F := Ideal) S3000x256 .f32 0x00000000#32) (ix2 p q)
      = ∑ k : Fin 256, h (ix2 p k) * S (ix2 k q) := by
  show FloatOps.matmul dot_S3000x256_S256x256_S3000x256_1_0_0_1_n_n none h S (constant (F := Ideal) S3000x256 .f32 0x00000000#32) (ix2 p q) = _
  rw [Ideal.matmul_constant_zero_apply,
    ← Equiv.sum_comp (contrEquiv1 dot_S3000x256_S256x256_S3000x256_1_0_0_1_n_n 256 rfl rfl).symm]
  refine Finset.sum_congr rfl fun k _ => ?_
  have hk := contrEquiv1_symm_val dot_S3000x256_S256x256_S3000x256_1_0_0_1_n_n 256 rfl rfl k
  have el : dot_S3000x256_S256x256_S3000x256_1_0_0_1_n_n.lhsIdx (ix2 p q)
      ((contrEquiv1 dot_S3000x256_S256x256_S3000x256_1_0_0_1_n_n 256 rfl rfl).symm k) = ix2 p k :=
    funext fun a => Fin.ext (by
      match a with
      | ⟨0, _⟩ => exact selfLhs0 _ _
      | ⟨1, _⟩ => exact (selfLhs1 _ _).trans hk)
  have er : dot_S3000x256_S256x256_S3000x256_1_0_0_1_n_n.rhsIdx (ix2 p q)
      ((contrEquiv1 dot_S3000x256_S256x256_S3000x256_1_0_0_1_n_n 256 rfl rfl).symm k) = ix2 k q :=
    funext fun a => Fin.ext (by
      match a with
      | ⟨0, _⟩ => exact (selfRhs0 _ _).trans hk
      | ⟨1, _⟩ => exact selfRhs1 _ _)
  rw [el, er]

/-! ## A bias vector broadcast down the rows -/

/-- A bias vector viewed as one row and broadcast to the block reads, at (p, q), the vector at q. -/
theorem biasRow_apply (b : FVec Ideal S256 .f32) (h1 : S256.ShapeCasts S1x256) (h2 : S1x256.Broadcasts S3000x256)
    (p : Fin 3000) (q : Fin 256) :
    broadcastTo S3000x256 (shapeCast S1x256 b h1) h2 (ix2 p q) = b (ix1 q) := by
  rw [broadcastTo_1b_ab_apply, shapeCast_a_1a_apply]

/-! ## One layer on the block -/

/-- One layer on the block, as the body writes it: both products into a zero accumulator, the operands changed
    to the narrow format, the bias vectors broadcast down the rows, the maximum against a broadcast zero. -/
def layerVec (d : FVec Ideal S3000x7 .bf16) (h : FVec Ideal S3000x256 .f32) (w : FVec Ideal S7x256 .f32)
    (S : FVec Ideal S256x256 .f32) (b c : FVec Ideal S256 .f32) : FVec Ideal S3000x256 .f32 :=
  maximumf
    (addf
      (addf
        (addf
          (matmul dot_S3000x7_S7x256_S3000x256_1_0_0_1_n_n none d
            (truncf .bf16 (shapeCast S7x256 w shapeCasts_S7x256_S7x256) bitsLt_bf16_f32)
            (constant (F := Ideal) S3000x256 .f32 0x00000000#32))
          (broadcastTo S3000x256 (shapeCast S1x256 b shapeCasts_S256_S1x256) broadcasts_S1x256_S3000x256))
        (matmul dot_S3000x256_S256x256_S3000x256_1_0_0_1_n_n none (truncf .bf16 h bitsLt_bf16_f32) (truncf .bf16 S bitsLt_bf16_f32)
          (constant (F := Ideal) S3000x256 .f32 0x00000000#32)))
      (broadcastTo S3000x256 (shapeCast S1x256 c shapeCasts_S256_S1x256) broadcasts_S1x256_S3000x256))
    (broadcast S3000x256 (Scalar.ofBits (F := Ideal) .f32 0x00000000#32))

/-- A layer on the block read at row p and column q is the one-node layer of row p at column q. -/
theorem layerVec_apply (d : FVec Ideal S3000x7 .bf16) (h : FVec Ideal S3000x256 .f32) (w : FVec Ideal S7x256 .f32)
    (S : FVec Ideal S256x256 .f32) (b c : FVec Ideal S256 .f32) (p : Fin 3000) (q : Fin 256) :
    layerVec d h w S b c (ix2 p q)
      = rowLayer (fun r => d (ix2 p r)) (fun k => h (ix2 p k)) (fun r q' => w (ix2 r q')) (fun k q' => S (ix2 k q'))
          (fun q' => b (ix1 q')) (fun q' => c (ix1 q')) q := by
  have hz : broadcast S3000x256 (Scalar.ofBits (F := Ideal) .f32 0x00000000#32) (ix2 p q) = (0 : EReal) :=
    Ideal.ofBits_zero_f32
  unfold layerVec rowLayer
  rw [maximumf_apply, addf_apply, addf_apply, addf_apply, degMatmul_apply, selfMatmul_apply, biasRow_apply,
    biasRow_apply, shapeCast_self, hz]
  rfl

/-- The same as an equation of functions of the column, for a fixed row. -/
theorem layerVec_row (d : FVec Ideal S3000x7 .bf16) (h : FVec Ideal S3000x256 .f32) (w : FVec Ideal S7x256 .f32)
    (S : FVec Ideal S256x256 .f32) (b c : FVec Ideal S256 .f32) (p : Fin 3000) :
    (fun q : Fin 256 => layerVec d h w S b c (ix2 p q))
      = rowLayer (fun r => d (ix2 p r)) (fun k => h (ix2 p k)) (fun r q' => w (ix2 r q')) (fun k q' => S (ix2 k q'))
          (fun q' => b (ix1 q')) (fun q' => c (ix1 q')) :=
  funext fun q => layerVec_apply d h w S b c p q

/-- The degrees in the narrow format are the degrees. -/
theorem pay2_eq (x0 : Vec Ideal S3000x7 .f32) : k0_pay2 (F := Ideal) x0 = x0 := by
  unfold k0_pay2
  dsimp only
  rw [shapeCast_self]
  rfl

/-! ## The body on the block -/

/-- The body's stored value is three layers on the block, each fed the degrees in the narrow format. -/
theorem pay1_eq_layers (x0 : Vec Ideal S3000x7 .f32) (x1 : Vec Ideal S3000x256 .f32)
    (x2 : Vec Ideal S7x256 .f32) (x3 : Vec Ideal S256x256 .f32) (x4 x5 : Vec Ideal S256 .f32)
    (x6 : Vec Ideal S7x256 .f32) (x7 : Vec Ideal S256x256 .f32) (x8 x9 : Vec Ideal S256 .f32)
    (x10 : Vec Ideal S7x256 .f32) (x11 : Vec Ideal S256x256 .f32) (x12 x13 : Vec Ideal S256 .f32) :
    k0_pay1 (F := Ideal) (k0_pay2 x0) (k0_pay3 x0 x1 x2 x3 x4 x5 x6 x7 x8) (k0_pay4 x9) x10 x11 x12 x13
      = layerVec (k0_pay2 x0)
          (layerVec (k0_pay2 x0) (layerVec (k0_pay2 x0) x1 x2 x3 x4 x5) x6 x7 x8 x9) x10 x11 x12 x13 := rfl

/-- The body's stored value at row p and column q of the block is the three-layer network of row p at column q. -/
theorem block_net (x0 : Vec Ideal S3000x7 .f32) (x1 : Vec Ideal S3000x256 .f32)
    (x2 : Vec Ideal S7x256 .f32) (x3 : Vec Ideal S256x256 .f32) (x4 x5 : Vec Ideal S256 .f32)
    (x6 : Vec Ideal S7x256 .f32) (x7 : Vec Ideal S256x256 .f32) (x8 x9 : Vec Ideal S256 .f32)
    (x10 : Vec Ideal S7x256 .f32) (x11 : Vec Ideal S256x256 .f32) (x12 x13 : Vec Ideal S256 .f32)
    (p : Fin 3000) (q : Fin 256) :
    k0_pay1 (F := Ideal) (k0_pay2 x0) (k0_pay3 x0 x1 x2 x3 x4 x5 x6 x7 x8) (k0_pay4 x9) x10 x11 x12 x13 (ix2 p q)
      = net (fun r => x0 (ix2 p r)) (fun k => x1 (ix2 p k))
          (fun r q' => x2 (ix2 r q')) (fun k q' => x3 (ix2 k q')) (fun q' => x4 (ix1 q')) (fun q' => x5 (ix1 q'))
          (fun r q' => x6 (ix2 r q')) (fun k q' => x7 (ix2 k q')) (fun q' => x8 (ix1 q')) (fun q' => x9 (ix1 q'))
          (fun r q' => x10 (ix2 r q')) (fun k q' => x11 (ix2 k q')) (fun q' => x12 (ix1 q')) (fun q' => x13 (ix1 q')) q := by
  rw [pay1_eq_layers, pay2_eq, layerVec_apply, layerVec_row, layerVec_row]
  rfl

end Cert.Proof.KernelBlock

end
-- ==== Proof.KernelHost.lean ====
/-
  What the kernel's pipeline finds in its arrays when the region is entered: the host code before it has written
    • the degrees [30000, 7]: the scatter-add of the edge weights at index  7 * node_out + relation  into a zero
      vector of 210000 entries, reshaped — the very term the reference computes;
    • for each layer the weights summed relation by relation [7, 256]: the weight matrix [1792, 256] reshaped to
      [7, 256, 256] and summed over the middle axis from zero. Entry (r, q) is  0 + ∑ j, W (256 r + j) q.
-/
import proofs.«148424_j10780367913281_1_alg».proof.Proof.Gen.KernelIdeal.Frame
import proofs.«148424_j10780367913281_1_alg».proof.Proof.RowLayer
import Idealize.ShloMosaic.Lib.ValueIdx
import Idealize.ShloMosaic.Lib.Pipeline.Value
import Idealize.ShloMosaic.Lib.StableHlo.Run
import Idealize.ShloMosaic.Lib.IdealHost
import Idealize.ShloMosaic.PureOps.Ideal.Laws

noncomputable section

namespace Cert.Proof.KernelHost

open Idealize.ShloMosaic Idealize.ShloMosaic.TcCoe Idealize.SL.Sem Idealize.ShloMosaic.StableHlo Idealize.ShloMosaic.ValueIdx
open Cert.KernelIdeal Cert.KernelIdeal.Gen Cert.Proof.Spec

/-- The per-node, per-relation degrees: the edge weights accumulated at  7 * node_out + relation. -/
def degs (e : FVec Ideal S1000000 .f32) (nodeOut rel : IVec S1000000 32) : FVec Ideal S30000x7 .f32 :=
  shapeCast S30000x7
    (Host.scatterAdd scatter_S210000_S1000000x1_S1000000_n_0_0_1
      (broadcastInDim S210000 ![] bcast_S_S210000 (constant (F := Ideal) S_ .f32 0x00000000#32))
      (broadcastInDim S1000000x1 ![0] bcast_S1000000_S1000000x1_0
        (addi (muli nodeOut (broadcastInDim S1000000 ![] bcast_S_S1000000 (constantI S_ 32 7#32))) rel))
      e)
    shapeCasts_S210000_S30000x7

/-- A layer's weights summed relation by relation. -/
def wsum (W : FVec Ideal S1792x256 .f32) : FVec Ideal S7x256 .f32 :=
  Host.reduceAdd (shapeCast S7x256x256 W shapeCasts_S1792x256_S7x256x256) (constant (F := Ideal) S_ .f32 0x00000000#32)
    reducesTo_S7x256x256_S7x256_d1 h_S_

variable (m : (ℓ : Loc nD τ sig) → Buf (Elt Ideal) ℓ)

theorem V_degs (c : Dev nD) :
    (V m c main_v6 : S30000x7.Idx → EReal) = degs (m ((c.tc : Thread nD τ).loc main_arg13)) (m ((c.tc : Thread nD τ).loc main_arg15)) (m ((c.tc : Thread nD τ).loc main_arg16)) := by
  show StableHlo.after hostOps0 (fun b => m (c, b)) (Proc.devRef .tc main_v6) = _
  after_results
  rfl

theorem V_wsum0 (c : Dev nD) : (V m c main_v8 : S7x256.Idx → EReal) = wsum (m ((c.tc : Thread nD τ).loc main_arg1)) := by
  show StableHlo.after hostOps0 (fun b => m (c, b)) (Proc.devRef .tc main_v8) = _
  after_results
  rfl

theorem V_wsum1 (c : Dev nD) : (V m c main_v10 : S7x256.Idx → EReal) = wsum (m ((c.tc : Thread nD τ).loc main_arg5)) := by
  show StableHlo.after hostOps0 (fun b => m (c, b)) (Proc.devRef .tc main_v10) = _
  after_results
  rfl

theorem V_wsum2 (c : Dev nD) : (V m c main_v12 : S7x256.Idx → EReal) = wsum (m ((c.tc : Thread nD τ).loc main_arg9)) := by
  show StableHlo.after hostOps0 (fun b => m (c, b)) (Proc.devRef .tc main_v12) = _
  after_results
  rfl

/-- Entry (r, q) of the summed weights is zero plus the sum of relation r's block of 256 weight rows in column q. -/
theorem wsum_apply (W : FVec Ideal S1792x256 .f32) (r : Fin 7) (q : Fin 256) :
    wsum W (ix2 r q) = blockSums (fun k q' => W (ix2 k q')) r q := by
  have h : S7x256x256.Reduces [1] S7x256 := by decide
  unfold wsum blockSums
  rw [hostReduceAdd_apply, Ideal.hostReduceAdd_single reducesTo_S7x256x256_S7x256_d1 h]
  show Ideal.ofBits .f32 0x00000000#32 + ∑ j : Fin 256, _ = _
  rw [Ideal.ofBits_zero_f32]
  refine congrArg (fun s => (0 : EReal) + s) (Finset.sum_congr rfl fun j _ => ?_)
  exact shapeCast_apply W shapeCasts_S1792x256_S7x256x256 _ (ix2 (rowOf r j) q)
    (by rewrite [Shape.rowMajor_val_two, Shape.rowMajor_val_three]; rfl)

end Cert.Proof.KernelHost

end
-- ==== Proof.KernelArray.lean ====
/-
  From the blocks to the array. The grid has ten points; point `t` stages rows 3000 t … 3000 t + 2999 of the degrees and
  of the input features, and the whole of every weight and bias array (their block index is 0 at every point), runs the
  body on them and writes its result back to the same rows of the output. The body's result on a block is the network
  applied row by row (the block law, a hypothesis here). Since the network's value at a node depends on that node's rows
  only, what point `t` writes back is the restriction to its rows of ONE function of the whole arrays, `feat`; the ten
  blocks tile the 30000 rows, so the output array ends holding `feat` everywhere.
-/
import proofs.«148424_j10780367913281_1_alg».proof.Proof.Gen.KernelIdeal.Frame
import proofs.«148424_j10780367913281_1_alg».proof.Proof.RowLayer
import Idealize.ShloMosaic.Lib.ValueIdx
import Idealize.ShloMosaic.Lib.Pipeline.Value

set_option maxRecDepth 16384

noncomputable section

namespace Cert.Proof.KernelArray

open Idealize.ShloMosaic Idealize.ShloMosaic.TcCoe Idealize.SL.Sem Idealize.ShloMosaic.ValueIdx
open Idealize.ShloMosaic.Pipeline (Dat)
open Cert.KernelIdeal Cert.KernelIdeal.Gen Cert.Proof.Spec

/-- The network node by node, as one function of whole arrays: the degrees, the input features, and per layer the
    summed weights, the self-loop matrix and the two biases. -/
def feat (a0 : S30000x7.Idx → EReal) (a1 : S30000x256.Idx → EReal) (a2 : S7x256.Idx → EReal) (a3 : S256x256.Idx → EReal) (a4 : S256.Idx → EReal) (a5 : S256.Idx → EReal) (a6 : S7x256.Idx → EReal) (a7 : S256x256.Idx → EReal) (a8 : S256.Idx → EReal) (a9 : S256.Idx → EReal) (a10 : S7x256.Idx → EReal) (a11 : S256x256.Idx → EReal) (a12 : S256.Idx → EReal) (a13 : S256.Idx → EReal) :
    S30000x256.Idx → EReal :=
  fun i => net
      (fun r => a0 (ix2 (i 0) r))
      (fun k => a1 (ix2 (i 0) k))
      (fun r q' => a2 (ix2 r q'))
      (fun k q' => a3 (ix2 k q'))
      (fun q' => a4 (ix1 q'))
      (fun q' => a5 (ix1 q'))
      (fun r q' => a6 (ix2 r q'))
      (fun k q' => a7 (ix2 k q'))
      (fun q' => a8 (ix1 q'))
      (fun q' => a9 (ix1 q'))
      (fun r q' => a10 (ix2 r q'))
      (fun k q' => a11 (ix2 k q'))
      (fun q' => a12 (ix1 q'))
      (fun q' => a13 (ix1 q')) (i 1)

/-- THE BLOCK LAW: on a block of 3000 nodes the body's stored value, at row `p` and feature `q`, is the network on
    row `p` of the degree block and of the feature block. -/
def BlockLaw : Prop :=
  ∀ (x0 : Vec Ideal S3000x7 .f32) (x1 : Vec Ideal S3000x256 .f32) (x2 : Vec Ideal S7x256 .f32) (x3 : Vec Ideal S256x256 .f32) (x4 : Vec Ideal S256 .f32) (x5 : Vec Ideal S256 .f32) (x6 : Vec Ideal S7x256 .f32) (x7 : Vec Ideal S256x256 .f32) (x8 : Vec Ideal S256 .f32) (x9 : Vec Ideal S256 .f32) (x10 : Vec Ideal S7x256 .f32) (x11 : Vec Ideal S256x256 .f32) (x12 : Vec Ideal S256 .f32) (x13 : Vec Ideal S256 .f32) (p : Fin 3000) (q : Fin 256),
    k0_pay1 (F := Ideal) (k0_pay2 x0) (k0_pay3 x0 x1 x2 x3 x4 x5 x6 x7 x8) (k0_pay4 x9) x10 x11 x12 x13 (ix2 p q)
      = net
          (fun r => x0 (ix2 p r))
          (fun k => x1 (ix2 p k))
          (fun r q' => x2 (ix2 r q'))
          (fun k q' => x3 (ix2 k q'))
          (fun q' => x4 (ix1 q'))
          (fun q' => x5 (ix1 q'))
          (fun r q' => x6 (ix2 r q'))
          (fun k q' => x7 (ix2 k q'))
          (fun q' => x8 (ix1 q'))
          (fun q' => x9 (ix1 q'))
          (fun r q' => x10 (ix2 r q'))
          (fun k q' => x11 (ix2 k q'))
          (fun q' => x12 (ix1 q'))
          (fun q' => x13 (ix1 q')) q

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three row-blocked windows are at block `t` at point `t`, every other
    window at block 0. -/
theorem idx_facts : ∀ t : Fin cfg0.N, win0_14.index t (0 : Fin 2) = t.val
    ∧ win0_14.index t (1 : Fin 2) = 0
    ∧ win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 1) = 0
    ∧ win0_5.index t (0 : Fin 1) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 1) = 0
    ∧ win0_9.index t (0 : Fin 1) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 1) = 0
    ∧ win0_13.index t (0 : Fin 1) = 0 :=
  (by decide +kernel : ∀ t : Fin grid0.N, _)

/-- Node  3000 t + p : row `p` of point `t`'s block. -/
abbrev nodeOf (t : Fin cfg0.N) (p : Fin 3000) : Fin 30000 :=
  ⟨t.val * 3000 + p.val, by have ht : t.val < grid0.N := t.isLt; have hN : grid0.N = 10 := N_0; have := p.isLt; omega⟩

/-- `feat` at node `n`, feature `q`: the network on node `n`'s rows. -/
theorem feat_row (a0 : S30000x7.Idx → EReal) (a1 : S30000x256.Idx → EReal) (a2 : S7x256.Idx → EReal) (a3 : S256x256.Idx → EReal) (a4 : S256.Idx → EReal) (a5 : S256.Idx → EReal) (a6 : S7x256.Idx → EReal) (a7 : S256x256.Idx → EReal) (a8 : S256.Idx → EReal) (a9 : S256.Idx → EReal) (a10 : S7x256.Idx → EReal) (a11 : S256x256.Idx → EReal) (a12 : S256.Idx → EReal) (a13 : S256.Idx → EReal)
    (n : Fin 30000) (q : Fin 256) :
    feat a0 a1 a2 a3 a4 a5 a6 a7 a8 a9 a10 a11 a12 a13 (ix2 n q)
      = net
        (fun r => a0 (ix2 n r))
        (fun k => a1 (ix2 n k))
        (fun r q' => a2 (ix2 r q'))
        (fun k q' => a3 (ix2 k q'))
        (fun q' => a4 (ix1 q'))
        (fun q' => a5 (ix1 q'))
        (fun r q' => a6 (ix2 r q'))
        (fun k q' => a7 (ix2 k q'))
        (fun q' => a8 (ix1 q'))
        (fun q' => a9 (ix1 q'))
        (fun r q' => a10 (ix2 r q'))
        (fun k q' => a11 (ix2 k q'))
        (fun q' => a12 (ix1 q'))
        (fun q' => a13 (ix1 q')) q := rfl

variable (m : (ℓ : Loc nD τ sig) → Buf (Elt Ideal) ℓ)

/-- Row `p` of point `t`'s block of window 0 is row  3000 t + p  of its array, whatever the array holds. -/
theorem blk0 (c : Dev nD) (A : Buf (Elt Ideal) ((c.tc : Thread nD τ).loc (Pipeline.arrRef spec0 (0 : Fin cfg0.W)))) (t : Fin cfg0.N) (p : Fin 3000) (r : Fin 7) :
    ((cfg0.win 0).blk t).view.read (Elt Ideal) A (ix2 p r) = A (ix2 (nodeOf t p) r) := by
  obtain ⟨f0, f1, f2, f3, f4, f5, f6, f7, f8, f9, f10, f11, f12, f13, f14, f15, f16, f17, f18, f19, f20, f21, f22, f23⟩ := idx_facts t
  show A (((cfg0.win 0).blk t).view.emb (ix2 p r)) = A (ix2 (nodeOf t p) r)
  refine congrArg A (funext fun a => Fin.ext ?_)
  match a with
  | ⟨0, _⟩ => show win0_0.index t (0 : Fin 2) * 3000 + 1 * p.val = t.val * 3000 + p.val; omega
  | ⟨1, _⟩ => show win0_0.index t (1 : Fin 2) * 7 + 1 * r.val = r.val; omega
theorem read0 (c : Dev nD) (t : Fin cfg0.N) (p : Fin 3000) (r : Fin 7) :
    iblk m c 0 t (ix2 p r) = V m c (Pipeline.arrRef spec0 (0 : Fin cfg0.W)) (ix2 (nodeOf t p) r) := by
  unfold iblk
  exact blk0 c _ t p r

/-- Row `p` of point `t`'s block of window 1 is row  3000 t + p  of its array, whatever the array holds. -/
theorem blk1 (c : Dev nD) (A : Buf (Elt Ideal) ((c.tc : Thread nD τ).loc (Pipeline.arrRef spec0 (1 : Fin cfg0.W)))) (t : Fin cfg0.N) (p : Fin 3000) (k : Fin 256) :
    ((cfg0.win 1).blk t).view.read (Elt Ideal) A (ix2 p k) = A (ix2 (nodeOf t p) k) := by
  obtain ⟨f0, f1, f2, f3, f4, f5, f6, f7, f8, f9, f10, f11, f12, f13, f14, f15, f16, f17, f18, f19, f20, f21, f22, f23⟩ := idx_facts t
  show A (((cfg0.win 1).blk t).view.emb (ix2 p k)) = A (ix2 (nodeOf t p) k)
  refine congrArg A (funext fun a => Fin.ext ?_)
  match a with
  | ⟨0, _⟩ => show win0_1.index t (0 : Fin 2) * 3000 + 1 * p.val = t.val * 3000 + p.val; omega
  | ⟨1, _⟩ => show win0_1.index t (1 : Fin 2) * 256 + 1 * k.val = k.val; omega
theorem read1 (c : Dev nD) (t : Fin cfg0.N) (p : Fin 3000) (k : Fin 256) :
    iblk m c 1 t (ix2 p k) = V m c (Pipeline.arrRef spec0 (1 : Fin cfg0.W)) (ix2 (nodeOf t p) k) := by
  unfold iblk
  exact blk1 c _ t p k

/-- Window 2 holds its whole array at every point. -/
theorem blk2 (c : Dev nD) (A : Buf (Elt Ideal) ((c.tc : Thread nD τ).loc (Pipeline.arrRef spec0 (2 : Fin cfg0.W)))) (t : Fin cfg0.N) (r : Fin 7) (q : Fin 256) :
    ((cfg0.win 2).blk t).view.read (Elt Ideal) A (ix2 r q) = A (ix2 r q) := by
  obtain ⟨f0, f1, f2, f3, f4, f5, f6, f7, f8, f9, f10, f11, f12, f13, f14, f15, f16, f17, f18, f19, f20, f21, f22, f23⟩ := idx_facts t
  show A (((cfg0.win 2).blk t).view.emb (ix2 r q)) = A (ix2 r q)
  refine congrArg A (funext fun a => Fin.ext ?_)
  match a with
  | ⟨0, _⟩ => show win0_2.index t (0 : Fin 2) * 7 + 1 * r.val = r.val; omega
  | ⟨1, _⟩ => show win0_2.index t (1 : Fin 2) * 256 + 1 * q.val = q.val; omega
theorem read2 (c : Dev nD) (t : Fin cfg0.N) (r : Fin 7) (q : Fin 256) : iblk m c 2 t (ix2 r q) = V m c (Pipeline.arrRef spec0 (2 : Fin cfg0.W)) (ix2 r q) := by
  unfold iblk
  exact blk2 c _ t r q

/-- Window 3 holds its whole array at every point. -/
theorem blk3 (c : Dev nD) (A : Buf (Elt Ideal) ((c.tc : Thread nD τ).loc (Pipeline.arrRef spec0 (3 : Fin cfg0.W)))) (t : Fin cfg0.N) (r : Fin 256) (q : Fin 256) :
    ((cfg0.win 3).blk t).view.read (Elt Ideal) A (ix2 r q) = A (ix2 r q) := by
  obtain ⟨f0, f1, f2, f3, f4, f5, f6, f7, f8, f9, f10, f11, f12, f13, f14, f15, f16, f17, f18, f19, f20, f21, f22, f23⟩ := idx_facts t
  show A (((cfg0.win 3).blk t).view.emb (ix2 r q)) = A (ix2 r q)
  refine congrArg A (funext fun a => Fin.ext ?_)
  match a with
  | ⟨0, _⟩ => show win0_3.index t (0 : Fin 2) * 256 + 1 * r.val = r.val; omega
  | ⟨1, _⟩ => show win0_3.index t (1 : Fin 2) * 256 + 1 * q.val = q.val; omega
theorem read3 (c : Dev nD) (t : Fin cfg0.N) (r : Fin 256) (q : Fin 256) : iblk m c 3 t (ix2 r q) = V m c (Pipeline.arrRef spec0 (3 : Fin cfg0.W)) (ix2 r q) := by
  unfold iblk
  exact blk3 c _ t r q

/-- Window 4 holds its whole array at every point. -/
theorem blk4 (c : Dev nD) (A : Buf (Elt Ideal) ((c.tc : Thread nD τ).loc (Pipeline.arrRef spec0 (4 : Fin cfg0.W)))) (t : Fin cfg0.N) (q : Fin 256) :
    ((cfg0.win 4).blk t).view.read (Elt Ideal) A (ix1 q) = A (ix1 q) := by
  obtain ⟨f0, f1, f2, f3, f4, f5, f6, f7, f8, f9, f10, f11, f12, f13, f14, f15, f16, f17, f18, f19, f20, f21, f22, f23⟩ := idx_facts t
  show A (((cfg0.win 4).blk t).view.emb (ix1 q)) = A (ix1 q)
  refine congrArg A (funext fun a => Fin.ext ?_)
  match a with
  | ⟨0, _⟩ => show win0_4.index t (0 : Fin 1) * 256 + 1 * q.val = q.val; omega
theorem read4 (c : Dev nD) (t : Fin cfg0.N) (q : Fin 256) : iblk m c 4 t (ix1 q) = V m c (Pipeline.arrRef spec0 (4 : Fin cfg0.W)) (ix1 q) := by
  unfold iblk
  exact blk4 c _ t q

/-- Window 5 holds its whole array at every point. -/
theorem blk5 (c : Dev nD) (A : Buf (Elt Ideal) ((c.tc : Thread nD τ).loc (Pipeline.arrRef spec0 (5 : Fin cfg0.W)))) (t : Fin cfg0.N) (q : Fin 256) :
    ((cfg0.win 5).blk t).view.read (Elt Ideal) A (ix1 q) = A (ix1 q) := by
  obtain ⟨f0, f1, f2, f3, f4, f5, f6, f7, f8, f9, f10, f11, f12, f13, f14, f15, f16, f17, f18, f19, f20, f21, f22, f23⟩ := idx_facts t
  show A (((cfg0.win 5).blk t).view.emb (ix1 q)) = A (ix1 q)
  refine congrArg A (funext fun a => Fin.ext ?_)
  match a with
  | ⟨0, _⟩ => show win0_5.index t (0 : Fin 1) * 256 + 1 * q.val = q.val; omega
theorem read5 (c : Dev nD) (t : Fin cfg0.N) (q : Fin 256) : iblk m c 5 t (ix1 q) = V m c (Pipeline.arrRef spec0 (5 : Fin cfg0.W)) (ix1 q) := by
  unfold iblk
  exact blk5 c _ t q

/-- Window 6 holds its whole array at every point. -/
theorem blk6 (c : Dev nD) (A : Buf (Elt Ideal) ((c.tc : Thread nD τ).loc (Pipeline.arrRef spec0 (6 : Fin cfg0.W)))) (t : Fin cfg0.N) (r : Fin 7) (q : Fin 256) :
    ((cfg0.win 6).blk t).view.read (Elt Ideal) A (ix2 r q) = A (ix2 r q) := by
  obtain ⟨f0, f1, f2, f3, f4, f5, f6, f7, f8, f9, f10, f11, f12, f13, f14, f15, f16, f17, f18, f19, f20, f21, f22, f23⟩ := idx_facts t
  show A (((cfg0.win 6).blk t).view.emb (ix2 r q)) = A (ix2 r q)
  refine congrArg A (funext fun a => Fin.ext ?_)
  match a with
  | ⟨0, _⟩ => show win0_6.index t (0 : Fin 2) * 7 + 1 * r.val = r.val; omega
  | ⟨1, _⟩ => show win0_6.index t (1 : Fin 2) * 256 + 1 * q.val = q.val; omega
theorem read6 (c : Dev nD) (t : Fin cfg0.N) (r : Fin 7) (q : Fin 256) : iblk m c 6 t (ix2 r q) = V m c (Pipeline.arrRef spec0 (6 : Fin cfg0.W)) (ix2 r q) := by
  unfold iblk
  exact blk6 c _ t r q

/-- Window 7 holds its whole array at every point. -/
theorem blk7 (c : Dev nD) (A : Buf (Elt Ideal) ((c.tc : Thread nD τ).loc (Pipeline.arrRef spec0 (7 : Fin cfg0.W)))) (t : Fin cfg0.N) (r : Fin 256) (q : Fin 256) :
    ((cfg0.win 7).blk t).view.read (Elt Ideal) A (ix2 r q) = A (ix2 r q) := by
  obtain ⟨f0, f1, f2, f3, f4, f5, f6, f7, f8, f9, f10, f11, f12, f13, f14, f15, f16, f17, f18, f19, f20, f21, f22, f23⟩ := idx_facts t
  show A (((cfg0.win 7).blk t).view.emb (ix2 r q)) = A (ix2 r q)
  refine congrArg A (funext fun a => Fin.ext ?_)
  match a with
  | ⟨0, _⟩ => show win0_7.index t (0 : Fin 2) * 256 + 1 * r.val = r.val; omega
  | ⟨1, _⟩ => show win0_7.index t (1 : Fin 2) * 256 + 1 * q.val = q.val; omega
theorem read7 (c : Dev nD) (t : Fin cfg0.N) (r : Fin 256) (q : Fin 256) : iblk m c 7 t (ix2 r q) = V m c (Pipeline.arrRef spec0 (7 : Fin cfg0.W)) (ix2 r q) := by
  unfold iblk
  exact blk7 c _ t r q

/-- Window 8 holds its whole array at every point. -/
theorem blk8 (c : Dev nD) (A : Buf (Elt Ideal) ((c.tc : Thread nD τ).loc (Pipeline.arrRef spec0 (8 : Fin cfg0.W)))) (t : Fin cfg0.N) (q : Fin 256) :
    ((cfg0.win 8).blk t).view.read (Elt Ideal) A (ix1 q) = A (ix1 q) := by
  obtain ⟨f0, f1, f2, f3, f4, f5, f6, f7, f8, f9, f10, f11, f12, f13, f14, f15, f16, f17, f18, f19, f20, f21, f22, f23⟩ := idx_facts t
  show A (((cfg0.win 8).blk t).view.emb (ix1 q)) = A (ix1 q)
  refine congrArg A (funext fun a => Fin.ext ?_)
  match a with
  | ⟨0, _⟩ => show win0_8.index t (0 : Fin 1) * 256 + 1 * q.val = q.val; omega
theorem read8 (c : Dev nD) (t : Fin cfg0.N) (q : Fin 256) : iblk m c 8 t (ix1 q) = V m c (Pipeline.arrRef spec0 (8 : Fin cfg0.W)) (ix1 q) := by
  unfold iblk
  exact blk8 c _ t q

/-- Window 9 holds its whole array at every point. -/
theorem blk9 (c : Dev nD) (A : Buf (Elt Ideal) ((c.tc : Thread nD τ).loc (Pipeline.arrRef spec0 (9 : Fin cfg0.W)))) (t : Fin cfg0.N) (q : Fin 256) :
    ((cfg0.win 9).blk t).view.read (Elt Ideal) A (ix1 q) = A (ix1 q) := by
  obtain ⟨f0, f1, f2, f3, f4, f5, f6, f7, f8, f9, f10, f11, f12, f13, f14, f15, f16, f17, f18, f19, f20, f21, f22, f23⟩ := idx_facts t
  show A (((cfg0.win 9).blk t).view.emb (ix1 q)) = A (ix1 q)
  refine congrArg A (funext fun a => Fin.ext ?_)
  match a with
  | ⟨0, _⟩ => show win0_9.index t (0 : Fin 1) * 256 + 1 * q.val = q.val; omega
theorem read9 (c : Dev nD) (t : Fin cfg0.N) (q : Fin 256) : iblk m c 9 t (ix1 q) = V m c (Pipeline.arrRef spec0 (9 : Fin cfg0.W)) (ix1 q) := by
  unfold iblk
  exact blk9 c _ t q

/-- Window 10 holds its whole array at every point. -/
theorem blk10 (c : Dev nD) (A : Buf (Elt Ideal) ((c.tc : Thread nD τ).loc (Pipeline.arrRef spec0 (10 : Fin cfg0.W)))) (t : Fin cfg0.N) (r : Fin 7) (q : Fin 256) :
    ((cfg0.win 10).blk t).view.read (Elt Ideal) A (ix2 r q) = A (ix2 r q) := by
  obtain ⟨f0, f1, f2, f3, f4, f5, f6, f7, f8, f9, f10, f11, f12, f13, f14, f15, f16, f17, f18, f19, f20, f21, f22, f23⟩ := idx_facts t
  show A (((cfg0.win 10).blk t).view.emb (ix2 r q)) = A (ix2 r q)
  refine congrArg A (funext fun a => Fin.ext ?_)
  match a with
  | ⟨0, _⟩ => show win0_10.index t (0 : Fin 2) * 7 + 1 * r.val = r.val; omega
  | ⟨1, _⟩ => show win0_10.index t (1 : Fin 2) * 256 + 1 * q.val = q.val; omega
theorem read10 (c : Dev nD) (t : Fin cfg0.N) (r : Fin 7) (q : Fin 256) : iblk m c 10 t (ix2 r q) = V m c (Pipeline.arrRef spec0 (10 : Fin cfg0.W)) (ix2 r q) := by
  unfold iblk
  exact blk10 c _ t r q

/-- Window 11 holds its whole array at every point. -/
theorem blk11 (c : Dev nD) (A : Buf (Elt Ideal) ((c.tc : Thread nD τ).loc (Pipeline.arrRef spec0 (11 : Fin cfg0.W)))) (t : Fin cfg0.N) (r : Fin 256) (q : Fin 256) :
    ((cfg0.win 11).blk t).view.read (Elt Ideal) A (ix2 r q) = A (ix2 r q) := by
  obtain ⟨f0, f1, f2, f3, f4, f5, f6, f7, f8, f9, f10, f11, f12, f13, f14, f15, f16, f17, f18, f19, f20, f21, f22, f23⟩ := idx_facts t
  show A (((cfg0.win 11).blk t).view.emb (ix2 r q)) = A (ix2 r q)
  refine congrArg A (funext fun a => Fin.ext ?_)
  match a with
  | ⟨0, _⟩ => show win0_11.index t (0 : Fin 2) * 256 + 1 * r.val = r.val; omega
  | ⟨1, _⟩ => show win0_11.index t (1 : Fin 2) * 256 + 1 * q.val = q.val; omega
theorem read11 (c : Dev nD) (t : Fin cfg0.N) (r : Fin 256) (q : Fin 256) : iblk m c 11 t (ix2 r q) = V m c (Pipeline.arrRef spec0 (11 : Fin cfg0.W)) (ix2 r q) := by
  unfold iblk
  exact blk11 c _ t r q

/-- Window 12 holds its whole array at every point. -/
theorem blk12 (c : Dev nD) (A : Buf (Elt Ideal) ((c.tc : Thread nD τ).loc (Pipeline.arrRef spec0 (12 : Fin cfg0.W)))) (t : Fin cfg0.N) (q : Fin 256) :
    ((cfg0.win 12).blk t).view.read (Elt Ideal) A (ix1 q) = A (ix1 q) := by
  obtain ⟨f0, f1, f2, f3, f4, f5, f6, f7, f8, f9, f10, f11, f12, f13, f14, f15, f16, f17, f18, f19, f20, f21, f22, f23⟩ := idx_facts t
  show A (((cfg0.win 12).blk t).view.emb (ix1 q)) = A (ix1 q)
  refine congrArg A (funext fun a => Fin.ext ?_)
  match a with
  | ⟨0, _⟩ => show win0_12.index t (0 : Fin 1) * 256 + 1 * q.val = q.val; omega
theorem read12 (c : Dev nD) (t : Fin cfg0.N) (q : Fin 256) : iblk m c 12 t (ix1 q) = V m c (Pipeline.arrRef spec0 (12 : Fin cfg0.W)) (ix1 q) := by
  unfold iblk
  exact blk12 c _ t q

/-- Window 13 holds its whole array at every point. -/
theorem blk13 (c : Dev nD) (A : Buf (Elt Ideal) ((c.tc : Thread nD τ).loc (Pipeline.arrRef spec0 (13 : Fin cfg0.W)))) (t : Fin cfg0.N) (q : Fin 256) :
    ((cfg0.win 13).blk t).view.read (Elt Ideal) A (ix1 q) = A (ix1 q) := by
  obtain ⟨f0, f1, f2, f3, f4, f5, f6, f7, f8, f9, f10, f11, f12, f13, f14, f15, f16, f17, f18, f19, f20, f21, f22, f23⟩ := idx_facts t
  show A (((cfg0.win 13).blk t).view.emb (ix1 q)) = A (ix1 q)
  refine congrArg A (funext fun a => Fin.ext ?_)
  match a with
  | ⟨0, _⟩ => show win0_13.index t (0 : Fin 1) * 256 + 1 * q.val = q.val; omega
theorem read13 (c : Dev nD) (t : Fin cfg0.N) (q : Fin 256) : iblk m c 13 t (ix1 q) = V m c (Pipeline.arrRef spec0 (13 : Fin cfg0.W)) (ix1 q) := by
  unfold iblk
  exact blk13 c _ t q

/-- The network of the arrays the region finds. -/
abbrev featV (c : Dev nD) : S30000x256.Idx → EReal :=
  feat (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) (V m c (Pipeline.arrRef spec0 (4 : Fin cfg0.W))) (V m c (Pipeline.arrRef spec0 (5 : Fin cfg0.W))) (V m c (Pipeline.arrRef spec0 (6 : Fin cfg0.W))) (V m c (Pipeline.arrRef spec0 (7 : Fin cfg0.W))) (V m c (Pipeline.arrRef spec0 (8 : Fin cfg0.W))) (V m c (Pipeline.arrRef spec0 (9 : Fin cfg0.W))) (V m c (Pipeline.arrRef spec0 (10 : Fin cfg0.W))) (V m c (Pipeline.arrRef spec0 (11 : Fin cfg0.W))) (V m c (Pipeline.arrRef spec0 (12 : Fin cfg0.W))) (V m c (Pipeline.arrRef spec0 (13 : Fin cfg0.W)))

/-- Window 14 is written back uncut: if a block value `v` agrees, row by row, with a function `G` of the whole array on
    the rows of point `t`, then what the point writes back is block `t` of `G`. -/
theorem cut_read (t : Fin cfg0.N) (v : Vec Ideal S3000x256 .f32) (G : S30000x256.Idx → EReal)
    (h : ∀ (p : Fin 3000) (q : Fin 256), v (ix2 p q) = G (ix2 (nodeOf t p) q)) :
    (cfg0.win 14).cut (grid0.coords t) v = ((cfg0.win 14).blk t).view.read (Elt Ideal) G := by
  obtain ⟨f0, f1, f2, f3, f4, f5, f6, f7, f8, f9, f10, f11, f12, f13, f14, f15, f16, f17, f18, f19, f20, f21, f22, f23⟩ := idx_facts t
  funext j
  obtain ⟨p, q, rfl⟩ : ∃ (p : Fin 3000) (q : Fin 256), j = ix2 p q := ⟨j 0, j 1, eq_ix2 j⟩
  have hrow : (((cfg0.win 14).blk t).view.emb (ix2 p q)) = ix2 (nodeOf t p) q := funext fun a => Fin.ext (by
    match a with
    | ⟨0, _⟩ => show win0_14.index t (0 : Fin 2) * 3000 + 1 * p.val = t.val * 3000 + p.val; omega
    | ⟨1, _⟩ => show win0_14.index t (1 : Fin 2) * 256 + 1 * q.val = q.val; omega)
  show v (ix2 p q) = G (((cfg0.win 14).blk t).view.emb (ix2 p q))
  rw [hrow]
  exact h p q

/-- The body's value on the blocks of point `t`, at row `p` and feature `q`, is `featV` at node  3000 t + p. -/
theorem body_at (hb : BlockLaw) (c : Dev nD) (t : Fin cfg0.N) (p : Fin 3000) (q : Fin 256) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p q)
      = featV m c (ix2 (nodeOf t p) q) := by
  unfold out0_14
  rw [View.canon_unit_zero hz2]
  simp only [View.ld_unit_zero (S := S3000x7) hz2, View.ld_unit_zero (S := S3000x256) hz2, View.ld_unit_zero (S := S7x256) hz2,
    View.ld_unit_zero (S := S256x256) hz2, View.ld_unit_zero (S := S256) hz1]
  refine (hb (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q).trans ?_
  have e0 : (fun r => iblk m c 0 t (ix2 p r)) = (fun r => V m c (Pipeline.arrRef spec0 (0 : Fin cfg0.W)) (ix2 (nodeOf t p) r)) := funext fun a => read0 m c t p a
  have e1 : (fun k => iblk m c 1 t (ix2 p k)) = (fun k => V m c (Pipeline.arrRef spec0 (1 : Fin cfg0.W)) (ix2 (nodeOf t p) k)) := funext fun a => read1 m c t p a
  have e2 : (fun r q' => iblk m c 2 t (ix2 r q')) = (fun r q' => V m c (Pipeline.arrRef spec0 (2 : Fin cfg0.W)) (ix2 r q')) := funext fun a => funext fun b => read2 m c t a b
  have e3 : (fun k q' => iblk m c 3 t (ix2 k q')) = (fun k q' => V m c (Pipeline.arrRef spec0 (3 : Fin cfg0.W)) (ix2 k q')) := funext fun a => funext fun b => read3 m c t a b
  have e4 : (fun q' => iblk m c 4 t (ix1 q')) = (fun q' => V m c (Pipeline.arrRef spec0 (4 : Fin cfg0.W)) (ix1 q')) := funext fun a => read4 m c t a
  have e5 : (fun q' => iblk m c 5 t (ix1 q')) = (fun q' => V m c (Pipeline.arrRef spec0 (5 : Fin cfg0.W)) (ix1 q')) := funext fun a => read5 m c t a
  have e6 : (fun r q' => iblk m c 6 t (ix2 r q')) = (fun r q' => V m c (Pipeline.arrRef spec0 (6 : Fin cfg0.W)) (ix2 r q')) := funext fun a => funext fun b => read6 m c t a b
  have e7 : (fun k q' => iblk m c 7 t (ix2 k q')) = (fun k q' => V m c (Pipeline.arrRef spec0 (7 : Fin cfg0.W)) (ix2 k q')) := funext fun a => funext fun b => read7 m c t a b
  have e8 : (fun q' => iblk m c 8 t (ix1 q')) = (fun q' => V m c (Pipeline.arrRef spec0 (8 : Fin cfg0.W)) (ix1 q')) := funext fun a => read8 m c t a
  have e9 : (fun q' => iblk m c 9 t (ix1 q')) = (fun q' => V m c (Pipeline.arrRef spec0 (9 : Fin cfg0.W)) (ix1 q')) := funext fun a => read9 m c t a
  have e10 : (fun r q' => iblk m c 10 t (ix2 r q')) = (fun r q' => V m c (Pipeline.arrRef spec0 (10 : Fin cfg0.W)) (ix2 r q')) := funext fun a => funext fun b => read10 m c t a b
  have e11 : (fun k q' => iblk m c 11 t (ix2 k q')) = (fun k q' => V m c (Pipeline.arrRef spec0 (11 : Fin cfg0.W)) (ix2 k q')) := funext fun a => funext fun b => read11 m c t a b
  have e12 : (fun q' => iblk m c 12 t (ix1 q')) = (fun q' => V m c (Pipeline.arrRef spec0 (12 : Fin cfg0.W)) (ix1 q')) := funext fun a => read12 m c t a
  have e13 : (fun q' => iblk m c 13 t (ix1 q')) = (fun q' => V m c (Pipeline.arrRef spec0 (13 : Fin cfg0.W)) (ix1 q')) := funext fun a => read13 m c t a
  rw [e0, e1, e2, e3, e4, e5, e6, e7, e8, e9, e10, e11, e12, e13]
  exact (feat_row (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) (V m c (Pipeline.arrRef spec0 (4 : Fin cfg0.W))) (V m c (Pipeline.arrRef spec0 (5 : Fin cfg0.W))) (V m c (Pipeline.arrRef spec0 (6 : Fin cfg0.W))) (V m c (Pipeline.arrRef spec0 (7 : Fin cfg0.W))) (V m c (Pipeline.arrRef spec0 (8 : Fin cfg0.W))) (V m c (Pipeline.arrRef spec0 (9 : Fin cfg0.W))) (V m c (Pipeline.arrRef spec0 (10 : Fin cfg0.W))) (V m c (Pipeline.arrRef spec0 (11 : Fin cfg0.W))) (V m c (Pipeline.arrRef spec0 (12 : Fin cfg0.W))) (V m c (Pipeline.arrRef spec0 (13 : Fin cfg0.W))) (nodeOf t p) q).symm

/-- WHAT POINT `t` WRITES BACK is block `t` of `featV`. -/
theorem flushed_eq (hb : BlockLaw) (c : Dev nD) (t : Fin cfg0.N) :
    (dats m 0 c).flushed 14 t = ((cfg0.win 14).blk t).view.read (Elt Ideal) (featV m c) := by
  show (cfg0.win 14).cut (grid0.coords t) ((dats m 0 c).after 14 t) = _
  rw [after0_14]
  exact cut_read t _ _ (body_at m hb c t)

/-- An index of the output array is in point `t`'s block iff each coordinate is in the block's range on its axis. -/
theorem mem_blk (t : Fin cfg0.N) (i : S30000x256.Idx) :
    i ∈ ((cfg0.win 14).blk t).view.set ↔ ∀ a : Fin 2, win0_14.index t a * S3000x256.size a ≤ (i a).val ∧ (i a).val < win0_14.index t a * S3000x256.size a + S3000x256.size a := by
  show i ∈ ((View.whole main_v13).slice (win0_14.rect t)).set ↔ _
  rw [View.set_slice_whole, Rect.mem_set_unit]
  exact Iff.rfl

/-- Every node's row is in the block of the point  node / 3000. -/
theorem cover (i : S30000x256.Idx) : ∃ t : Fin cfg0.N, (cfg0.win 14).flush t = true ∧ i ∈ ((cfg0.win 14).blk t).view.set := by
  have hi0 : (i 0).val < 30000 := (i 0).isLt
  have hi1 : (i 1).val < 256 := (i 1).isLt
  have hN : grid0.N = 10 := N_0
  let t : Fin cfg0.N := ⟨(i 0).val / 3000, by show (i 0).val / 3000 < grid0.N; omega⟩
  obtain ⟨f0, f1, f2, f3, f4, f5, f6, f7, f8, f9, f10, f11, f12, f13, f14, f15, f16, f17, f18, f19, f20, f21, f22, f23⟩ := idx_facts t
  refine ⟨t, flush0_14 t, ?_⟩
  rw [mem_blk]
  have ht : t.val = (i 0).val / 3000 := rfl
  intro a
  match a with
  | ⟨0, _⟩ => show win0_14.index t (0 : Fin 2) * 3000 ≤ (i 0).val ∧ (i 0).val < win0_14.index t (0 : Fin 2) * 3000 + 3000; omega
  | ⟨1, _⟩ => show win0_14.index t (1 : Fin 2) * 256 ≤ (i 1).val ∧ (i 1).val < win0_14.index t (1 : Fin 2) * 256 + 256; omega

/-- THE OUTPUT ARRAY after the run is `featV`. -/
theorem final (hb : BlockLaw) (c : Dev nD) : (dats m 0 c).arrAt 14 cfg0.N = featV m c :=
  (dats m 0 c).arrAt_eq_of_cover 14 (featV m c) (fun t _ => flushed_eq m hb c t) cover

end Cert.Proof.KernelArray

end
-- ==== Proof.KernelFeat.lean ====
/-
  The kernel's node features as a function of the ARGUMENTS: what the region finds in each of its fourteen input arrays is
  an argument array as launched, or, for the degrees and the three summed weight arrays, what the host code before the
  region computed from the arguments.
-/
import proofs.«148424_j10780367913281_1_alg».proof.Proof.KernelArray
import proofs.«148424_j10780367913281_1_alg».proof.Proof.KernelHost

noncomputable section

namespace Cert.Proof.KernelFeat

open Idealize.ShloMosaic Idealize.ShloMosaic.TcCoe Idealize.SL.Sem Idealize.ShloMosaic.ValueIdx
open Cert.KernelIdeal Cert.KernelIdeal.Gen Cert.Proof.Spec Cert.Proof.KernelArray Cert.Proof.KernelHost

/-- `feat` of equal arrays. -/
theorem feat_congr {a0 a0' : S30000x7.Idx → EReal} {a1 a1' : S30000x256.Idx → EReal} {a2 a2' : S7x256.Idx → EReal} {a3 a3' : S256x256.Idx → EReal} {a4 a4' : S256.Idx → EReal} {a5 a5' : S256.Idx → EReal} {a6 a6' : S7x256.Idx → EReal} {a7 a7' : S256x256.Idx → EReal} {a8 a8' : S256.Idx → EReal} {a9 a9' : S256.Idx → EReal} {a10 a10' : S7x256.Idx → EReal} {a11 a11' : S256x256.Idx → EReal} {a12 a12' : S256.Idx → EReal} {a13 a13' : S256.Idx → EReal}
    (h0 : a0 = a0') (h1 : a1 = a1') (h2 : a2 = a2') (h3 : a3 = a3') (h4 : a4 = a4') (h5 : a5 = a5') (h6 : a6 = a6') (h7 : a7 = a7') (h8 : a8 = a8') (h9 : a9 = a9') (h10 : a10 = a10') (h11 : a11 = a11') (h12 : a12 = a12') (h13 : a13 = a13') :
    feat a0 a1 a2 a3 a4 a5 a6 a7 a8 a9 a10 a11 a12 a13 = feat a0' a1' a2' a3' a4' a5' a6' a7' a8' a9' a10' a11' a12' a13' := by
  subst h0 h1 h2 h3 h4 h5 h6 h7 h8 h9 h10 h11 h12 h13
  rfl

variable (m : (ℓ : Loc nD τ sig) → Buf (Elt Ideal) ℓ)

/-- The node features of the arguments. -/
abbrev featM (c : Dev nD) : S30000x256.Idx → EReal :=
  feat (degs (m ((c.tc : Thread nD τ).loc main_arg13)) (m ((c.tc : Thread nD τ).loc main_arg15)) (m ((c.tc : Thread nD τ).loc main_arg16)))
    (m ((c.tc : Thread nD τ).loc main_arg0))
    (wsum (m ((c.tc : Thread nD τ).loc main_arg1)))
    (m ((c.tc : Thread nD τ).loc main_arg3))
    (m ((c.tc : Thread nD τ).loc main_arg2))
    (m ((c.tc : Thread nD τ).loc main_arg4))
    (wsum (m ((c.tc : Thread nD τ).loc main_arg5)))
    (m ((c.tc : Thread nD τ).loc main_arg7))
    (m ((c.tc : Thread nD τ).loc main_arg6))
    (m ((c.tc : Thread nD τ).loc main_arg8))
    (wsum (m ((c.tc : Thread nD τ).loc main_arg9)))
    (m ((c.tc : Thread nD τ).loc main_arg11))
    (m ((c.tc : Thread nD τ).loc main_arg10))
    (m ((c.tc : Thread nD τ).loc main_arg12))

theorem featV_eq (c : Dev nD) : featV m c = featM m c :=
  feat_congr (V_degs m c) (V_main_arg0 m c) (V_wsum0 m c) (V_main_arg3 m c) (V_main_arg2 m c) (V_main_arg4 m c) (V_wsum1 m c) (V_main_arg7 m c) (V_main_arg6 m c) (V_main_arg8 m c) (V_wsum2 m c) (V_main_arg11 m c) (V_main_arg10 m c) (V_main_arg12 m c)

end Cert.Proof.KernelFeat

end
-- ==== Proof.KernelRun.lean ====
/-
  The idealized kernel's run, read: every weakly fair execution ends with
    • the node-feature array at `featV` (the network node by node on the arrays the region finds),
    • the graph-feature array at the read-out of those node features: the scatter-add of the node rows at their graph
      ids into a zero [100, 256] array, which the host code after the region computes from the region's output,
    • every argument array as it was: an input window's array is never written, and the host code after the region
      writes only its own results.
-/
import proofs.«148424_j10780367913281_1_alg».proof.Proof.KernelArray
import Idealize.ShloMosaic.Lib.StableHlo.Run

set_option maxRecDepth 16384

noncomputable section

namespace Cert.Proof.KernelRun

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.Proof.Spec Cert.Proof.KernelArray

/-- The graph read-out: node rows accumulated at their graph ids, from zero. -/
def readout (nf : FVec Ideal S30000x256 .f32) (graphOf : IVec S30000 32) : FVec Ideal S100x256 .f32 :=
  Host.scatterAdd scatter_S100x256_S30000x1_S30000x256_1_0_0_1
    (broadcastInDim S100x256 ![] bcast_S_S100x256 (constant (F := Ideal) S_ .f32 0x00000000#32))
    (broadcastInDim S30000x1 ![0] bcast_S30000_S30000x1_0 graphOf) nf

variable (m : (ℓ : Loc nD τ sig) → Buf (Elt Ideal) ℓ)

/-- What the host code after the region leaves in the graph-feature array. -/
theorem tail_eq (hb : BlockLaw) (c : Dev nD) :
    (Pipeline.afterTail₀ cfgs (dats m) 0 (V0 m) [hostOps1] c main_v16 : S100x256.Idx → EReal)
      = readout (featV m c) (m ((c.tc : Thread nD τ).loc main_arg17)) := by
  have h13 : Pipeline.withArrays (cfgs 0).spec c (V0 m c) (fun w => (dats m 0 c).arrAt w (cfgs 0).N) (Proc.devRef .tc main_v13)
      = featV m c :=
    (Pipeline.withArrays_arr spec0 launch0.win.arr_inj c _ _ 14).trans (final m hb c)
  have h17 : Pipeline.withArrays (cfgs 0).spec c (V0 m c) (fun w => (dats m 0 c).arrAt w (cfgs 0).N) (Proc.devRef .tc main_arg17)
      = m ((c.tc : Thread nD τ).loc main_arg17) :=
    (Pipeline.withArrays_of_ne _ c (V0 m c) _ main_arg17 (by exact (by decide : ∀ w, Pipeline.arrRef spec0 w ≠ main_arg17))).trans
      (V_main_arg17 m c)
  unfold Pipeline.afterTail₀
  show StableHlo.after hostOps1 _ (Proc.devRef .tc main_v16) = _
  after_results
  rw [h13, h17]
  rfl

/-- THE RUN, READ. -/
theorem run (hb : BlockLaw) (ρ : Dev nD → PrngReg) :
    θ_run defs (onTc (τ := τ) (main (F := Ideal))) ⟨m, fun _ => 0, ρ⟩ (fun r => ∀ c : Dev nD,
      r.2.mem ((c.tc : Thread nD τ).loc main_v13) = featV m c
      ∧ r.2.mem ((c.tc : Thread nD τ).loc main_v16) = readout (featV m c) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨((h c).1 14).trans (final m hb c),
      ((h c).2 main_v16 (Pipeline.mem_restRefs_of main_v16 (by decide) (by decide))).trans (tail_eq m hb c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).1 4).trans (((dats m 0 c).arrAt_in 4 rfl _).trans ((A_eq m c 4).trans (V_main_arg2 m c))),
      ((h c).1 3).trans (((dats m 0 c).arrAt_in 3 rfl _).trans ((A_eq m c 3).trans (V_main_arg3 m c))),
      ((h c).1 5).trans (((dats m 0 c).arrAt_in 5 rfl _).trans ((A_eq m c 5).trans (V_main_arg4 m c))),
      ((h c).2 main_arg5 (Pipeline.mem_restRefs_of main_arg5 (by decide) (by decide))).trans (W_main_arg5 m (dats m) c),
      ((h c).1 8).trans (((dats m 0 c).arrAt_in 8 rfl _).trans ((A_eq m c 8).trans (V_main_arg6 m c))),
      ((h c).1 7).trans (((dats m 0 c).arrAt_in 7 rfl _).trans ((A_eq m c 7).trans (V_main_arg7 m c))),
      ((h c).1 9).trans (((dats m 0 c).arrAt_in 9 rfl _).trans ((A_eq m c 9).trans (V_main_arg8 m c))),
      ((h c).2 main_arg9 (Pipeline.mem_restRefs_of main_arg9 (by decide) (by decide))).trans (W_main_arg9 m (dats m) c),
      ((h c).1 12).trans (((dats m 0 c).arrAt_in 12 rfl _).trans ((A_eq m c 12).trans (V_main_arg10 m c))),
      ((h c).1 11).trans (((dats m 0 c).arrAt_in 11 rfl _).trans ((A_eq m c 11).trans (V_main_arg11 m c))),
      ((h c).1 13).trans (((dats m 0 c).arrAt_in 13 rfl _).trans ((A_eq m c 13).trans (V_main_arg12 m c))),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c)⟩)
    (run_main m ρ)

end Cert.Proof.KernelRun

end
-- ==== Proof.Bridge.lean ====
/-
  The two programs compute one function of the arguments.

  The reference's node features at node `p` are the network in its wide arrangement on the node's degrees and input row;
  the kernel's are the narrow arrangement on the same degrees, with the weights summed relation by relation by the host
  code. The two arrangements agree where the degrees and the weights are finite. The weights are finite by the
  precondition. A degree is zero plus a finite sum of edge weights — the scatter-add, on the extended reals, adds to each
  entry of its zero operand the updates whose index lands on it — and the edge weights are finite by the precondition, so
  every degree is a real number.
-/
import proofs.«148424_j10780367913281_1_alg».proof.Proof.RefLayers
import proofs.«148424_j10780367913281_1_alg».proof.Proof.KernelHost
import proofs.«148424_j10780367913281_1_alg».proof.Proof.KernelArray

noncomputable section

namespace Cert.Proof.Bridge

open Idealize.ShloMosaic Idealize.ShloMosaic.ValueIdx Cert.Proof.Spec
open Cert.Proof.KernelHost (degs wsum wsum_apply)
open Cert.Proof.KernelArray (feat feat_row)
open Cert.ReferenceIdeal.Read (val_main_v6 val_main_v45)

/-- A scatter-add of real updates into an operand that is zero everywhere has real entries. -/
theorem scatterAdd_real {s si su : Shape} (d : ScatterDims s si su) {w : Nat} (x : FVec Ideal s .f32) (idx : IVec si w)
    (upd : FVec Ideal su .f32) (hx : ∀ j, x j = (0 : EReal)) (hu : ∀ i, ∃ y : ℝ, upd i = (y : EReal)) (j : s.Idx) :
    ∃ y : ℝ, Host.scatterAdd d x idx upd j = (y : EReal) := by
  unfold Host.scatterAdd
  rw [Ideal.hostScatterAdd_def]
  unfold Ideal.hostScatterAdd
  beta_reduce
  rw [hx j]
  exact exists_real_zero_add_sum _ upd hu

/-- Every degree is a real number when every edge weight is. -/
theorem degs_real (e : FVec Ideal Cert.KernelIdeal.S1000000 .f32) (nodeOut rel : IVec Cert.KernelIdeal.S1000000 32)
    (he : ∀ i, ∃ y : ℝ, e i = (y : EReal)) (i : Cert.KernelIdeal.S30000x7.Idx) :
    ∃ y : ℝ, degs e nodeOut rel i = (y : EReal) := by
  unfold degs shapeCast
  exact scatterAdd_real _ _ _ _ (fun j => Ideal.ofBits_zero_f32) he _

/-- The reference's degrees are the kernel's: one scatter-add of the edge weights, reshaped. -/
theorem ref_degs (x13 : (⟨Cert.ReferenceIdeal.S1000000, .f32⟩ : BufTy).Contents (Elt Ideal)) (x15 : (⟨Cert.ReferenceIdeal.S1000000, .i32⟩ : BufTy).Contents (Elt Ideal)) (x16 : (⟨Cert.ReferenceIdeal.S1000000, .i32⟩ : BufTy).Contents (Elt Ideal)) : val_main_v6 (F := Ideal) x13 x15 x16 = degs x13 x15 x16 := rfl

/-- THE BRIDGE: for finite weights and edge weights the reference's node features are `feat` of the degrees, the input
    features, the weights summed relation by relation, the self-loop matrices and the biases. -/
theorem ref_eq_feat (x0 : (⟨Cert.ReferenceIdeal.S30000x256, .f32⟩ : BufTy).Contents (Elt Ideal)) (x1 : (⟨Cert.ReferenceIdeal.S1792x256, .f32⟩ : BufTy).Contents (Elt Ideal)) (x2 : (⟨Cert.ReferenceIdeal.S256, .f32⟩ : BufTy).Contents (Elt Ideal)) (x3 : (⟨Cert.ReferenceIdeal.S256x256, .f32⟩ : BufTy).Contents (Elt Ideal)) (x4 : (⟨Cert.ReferenceIdeal.S256, .f32⟩ : BufTy).Contents (Elt Ideal)) (x5 : (⟨Cert.ReferenceIdeal.S1792x256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S1792x256, .f32⟩ : BufTy).Contents (Elt Ideal)) (x10 : (⟨Cert.ReferenceIdeal.S256, .f32⟩ : BufTy).Contents (Elt Ideal)) (x11 : (⟨Cert.ReferenceIdeal.S256x256, .f32⟩ : BufTy).Contents (Elt Ideal)) (x12 : (⟨Cert.ReferenceIdeal.S256, .f32⟩ : BufTy).Contents (Elt Ideal)) (x13 : (⟨Cert.ReferenceIdeal.S1000000, .f32⟩ : BufTy).Contents (Elt Ideal)) (x15 : (⟨Cert.ReferenceIdeal.S1000000, .i32⟩ : BufTy).Contents (Elt Ideal)) (x16 : (⟨Cert.ReferenceIdeal.S1000000, .i32⟩ : BufTy).Contents (Elt Ideal))
    (h1 : ∀ i, ∃ y : ℝ, x1 i = (y : EReal)) (h5 : ∀ i, ∃ y : ℝ, x5 i = (y : EReal)) (h9 : ∀ i, ∃ y : ℝ, x9 i = (y : EReal))
    (h13 : ∀ i, ∃ y : ℝ, x13 i = (y : EReal)) :
    val_main_v45 (F := Ideal) x0 x1 x2 x3 x4 x5 x6 x7 x8 x9 x10 x11 x12 x13 x15 x16
      = feat (degs x13 x15 x16) x0 (wsum x1) x3 x2 x4 (wsum x5) x7 x6 x8 (wsum x9) x11 x10 x12 := by
  funext i
  obtain ⟨p, q, rfl⟩ : ∃ (p : Fin 30000) (q : Fin 256), i = ix2 p q := ⟨i 0, i 1, eq_ix2 i⟩
  have hdeg : Cert.Proof.RefLayers.degRow x13 x15 x16 p = fun r => degs x13 x15 x16 (ix2 p r) := by
    show (fun r => val_main_v6 (F := Ideal) x13 x15 x16 (ix2 p r)) = _
    rw [ref_degs]
  have hw : ∀ W : FVec Ideal Cert.KernelIdeal.S1792x256 .f32,
      (fun r q' => wsum W (ix2 r q')) = blockSums (fun k q' => W (ix2 k q')) :=
    fun W => funext fun r => funext fun q' => wsum_apply W r q'
  rw [Cert.Proof.RefLayers.node_feature, feat_row,
    netWide_eq _ _ _ _ _ _ _ _ _ _ _ _ _ _ (by rw [hdeg]; exact fun r => degs_real x13 x15 x16 h13 _)
      (fun k q' => h1 _) (fun k q' => h5 _) (fun k q' => h9 _),
    hdeg, hw x1, hw x5, hw x9]

end Cert.Proof.Bridge

end
-- ==== Proof.FiniteInputs.lean ====
/-
  From the finiteness precondition to real entries.

  The precondition is the conjunction, over the fourteen float arrays, of "every entry x has |x| < +∞".
  On the extended reals |x| = max x (-x), and the word 0x7F800000 denotes +∞; so |x| < +∞ fails at
  both infinities and holds exactly at the real numbers. Read back through the all-reduction and the
  conjunction, the precondition gives that every entry of every float array is a real number.
-/
import proofs.«148424_j10780367913281_1_alg».proof.Pre_finite_inputs
import Idealize.ShloMosaic.PureOps.Ideal
import Idealize.ShloMosaic.Lib.ReduceAll
import Idealize.ShloMosaic.Lib.ValueIdx

noncomputable section

namespace Cert.Proof.Finite

open Idealize.ShloMosaic
open Cert.Pre_finite_inputs

/-- The scalar shape has exactly one index. -/
instance subsingleton_scalar_idx : Subsingleton S_.Idx := ⟨fun a b => funext fun d => d.elim0⟩

/-- The f32 word 0x7F800000 denotes +∞. -/
theorem ofBits_inf : Ideal.ofBits .f32 0x7F800000#32 = (⊤ : EReal) := by
  simp [Ideal.ofBits, Ideal.ieee]

/-- An extended real whose absolute value is below +∞ is a real number. -/
theorem real_of_abs_lt_inf (x : Ideal .f32)
    (h : FloatOps.cmpf (F := Ideal) .olt (FloatOps.hostAbsf (F := Ideal) x)
          (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf] at h
  induction x using EReal.rec with
  | bot => simp [Ideal.cmp] at h
  | top => simp [Ideal.cmp] at h
  | coe r => exact ⟨r, rfl⟩

/-- One array: if the all-reduction of "|x| < +∞" over its entries is 1, every entry is a real number. -/
theorem reals_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf (F := Ideal) x)
            (broadcastInDim s ![] hb (constant (F := Ideal) S_ .f32 0x7F800000#32)))
          (constantI S_ 1 1#1) hr hu ValueIdx.ix0 = 1#1) :
    ∀ i, ∃ r : ℝ, x i = (r : EReal) := by
  intro i
  have hi := Host.reduce_andi_all _ _ hr hu ValueIdx.ix0 e i
  exact real_of_abs_lt_inf (x i) hi

/-- The precondition at the ideal instance: every entry of each of the fourteen float arrays is a real number. -/
theorem all_reals_of_pre [Cert.Pre_finite_inputs.Facts]
    (a0 : FVec Ideal S30000x256 .f32) (a1 : FVec Ideal S1792x256 .f32) (a2 : FVec Ideal S256 .f32)
    (a3 : FVec Ideal S256x256 .f32) (a4 : FVec Ideal S256 .f32) (a5 : FVec Ideal S1792x256 .f32)
    (a6 : FVec Ideal S256 .f32) (a7 : FVec Ideal S256x256 .f32) (a8 : FVec Ideal S256 .f32)
    (a9 : FVec Ideal S1792x256 .f32) (a10 : FVec Ideal S256 .f32) (a11 : FVec Ideal S256x256 .f32)
    (a12 : FVec Ideal S256 .f32) (a13 : FVec Ideal S1000000 .f32)
    (a14 a15 a16 : IVec S1000000 32) (a17 : IVec S30000 32)
    (h : Cert.Pre_finite_inputs.fn (F := Ideal) a0 a1 a2 a3 a4 a5 a6 a7 a8 a9 a10 a11 a12 a13 a14 a15 a16 a17
          = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal))
      ∧ (∀ i, ∃ r : ℝ, a8 i = (r : EReal)) ∧ (∀ i, ∃ r : ℝ, a9 i = (r : EReal))
      ∧ (∀ i, ∃ r : ℝ, a10 i = (r : EReal)) ∧ (∀ i, ∃ r : ℝ, a11 i = (r : EReal))
      ∧ (∀ i, ∃ r : ℝ, a12 i = (r : EReal)) ∧ (∀ i, ∃ r : ℝ, a13 i = (r : EReal)) := by
  have h0 := congrFun h ValueIdx.ix0
  dsimp only [fn, fn_part1, fn_part2, fn_part3, fn_part4, andi] at h0
  simp only [IntOp.andi_eq_one] at h0
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := h0
  exact ⟨reals_of_all a0 _ _ _ e0, reals_of_all a1 _ _ _ e1, reals_of_all a2 _ _ _ e2,
    reals_of_all a3 _ _ _ e3, reals_of_all a4 _ _ _ e4, reals_of_all a5 _ _ _ e5,
    reals_of_all a6 _ _ _ e6, reals_of_all a7 _ _ _ e7, reals_of_all a8 _ _ _ e8,
    reals_of_all a9 _ _ _ e9, reals_of_all a10 _ _ _ e10, reals_of_all a11 _ _ _ e11,
    reals_of_all a12 _ _ _ e12, reals_of_all a13 _ _ _ e13⟩

/-- The four arrays the distributivity step touches: the three weight arrays and the edge weights. -/
theorem reals_of_pre [Cert.Pre_finite_inputs.Facts]
    (a0 : FVec Ideal S30000x256 .f32) (a1 : FVec Ideal S1792x256 .f32) (a2 : FVec Ideal S256 .f32)
    (a3 : FVec Ideal S256x256 .f32) (a4 : FVec Ideal S256 .f32) (a5 : FVec Ideal S1792x256 .f32)
    (a6 : FVec Ideal S256 .f32) (a7 : FVec Ideal S256x256 .f32) (a8 : FVec Ideal S256 .f32)
    (a9 : FVec Ideal S1792x256 .f32) (a10 : FVec Ideal S256 .f32) (a11 : FVec Ideal S256x256 .f32)
    (a12 : FVec Ideal S256 .f32) (a13 : FVec Ideal S1000000 .f32)
    (a14 a15 a16 : IVec S1000000 32) (a17 : IVec S30000 32)
    (h : Cert.Pre_finite_inputs.fn (F := Ideal) a0 a1 a2 a3 a4 a5 a6 a7 a8 a9 a10 a11 a12 a13 a14 a15 a16 a17
          = fun _ => 1#1) :
    (∀ i, ∃ r : ℝ, a1 i = (r : EReal)) ∧ (∀ i, ∃ r : ℝ, a5 i = (r : EReal))
      ∧ (∀ i, ∃ r : ℝ, a9 i = (r : EReal)) ∧ (∀ i, ∃ r : ℝ, a13 i = (r : EReal)) := by
  obtain ⟨_, r1, _, _, _, r5, _, _, _, r9, _, _, _, r13⟩ :=
    all_reals_of_pre a0 a1 a2 a3 a4 a5 a6 a7 a8 a9 a10 a11 a12 a13 a14 a15 a16 a17 h
  exact ⟨r1, r5, r9, r13⟩

end Cert.Proof.Finite

end
-- ==== Proof.lean ====
/-
  The certificate of the three-layer relational graph convolution.

  Both programs compute, for every node, the same three layers
      h ↦ max (((u + b) + h · S) + c) 0
  on the node's feature row, where the message term `u` is the node's per-relation degrees applied to the layer's weight
  matrix, and then read the node features out per graph by a scatter-add. They differ in how `u` is arranged: the
  reference repeats each degree 256 times and multiplies by all 1792 weight rows; the kernel sums the weight rows of each
  relation first (host code) and multiplies the seven degrees by the seven sums (in the pipeline, 3000 nodes per grid
  point). On the extended reals the two arrangements agree by distributivity wherever the degrees and weights are finite,
  which the precondition gives: the weights directly, the degrees as finite sums of finite edge weights.

  The pieces: the one-node layer in both arrangements and the law joining them; the reference read node by node; the
  kernel body on a block read node by node; the blocks assembled into the array; the host code around the region; the
  finiteness drawn from the precondition. Here they are put together.
  The three frame conjuncts are the generated frames (the reference's is its generated run with the results dropped);
  the idealization rewrote nothing, so its conjunct is trivial.
-/
import proofs.«148424_j10780367913281_1_alg».proof.Defs
import proofs.«148424_j10780367913281_1_alg».proof.Proof.Gen.Kernel
import proofs.«148424_j10780367913281_1_alg».proof.Proof.Gen.Kernel.Skeleton
import proofs.«148424_j10780367913281_1_alg».proof.Proof.Gen.Kernel.Launch
import proofs.«148424_j10780367913281_1_alg».proof.Proof.Gen.Kernel.Points
import proofs.«148424_j10780367913281_1_alg».proof.Proof.Gen.Kernel.Frame
import proofs.«148424_j10780367913281_1_alg».proof.Proof.Gen.KernelIdeal
import proofs.«148424_j10780367913281_1_alg».proof.Proof.Gen.KernelIdeal.Skeleton
import proofs.«148424_j10780367913281_1_alg».proof.Proof.Gen.KernelIdeal.Launch
import proofs.«148424_j10780367913281_1_alg».proof.Proof.Gen.KernelIdeal.Points
import proofs.«148424_j10780367913281_1_alg».proof.Proof.Gen.KernelIdeal.Frame
import proofs.«148424_j10780367913281_1_alg».proof.Proof.Gen.ReferenceIdeal
import proofs.«148424_j10780367913281_1_alg».proof.Proof.Gen.ReferenceIdeal.Run
import proofs.«148424_j10780367913281_1_alg».proof.Proof.Gen.ReferenceIdeal.Read
import proofs.«148424_j10780367913281_1_alg».proof.Proof.Gen.Pre_finite_inputs
import proofs.«148424_j10780367913281_1_alg».proof.Proof.RowLayer
import proofs.«148424_j10780367913281_1_alg».proof.Proof.RefLayers
import proofs.«148424_j10780367913281_1_alg».proof.Proof.KernelBlock
import proofs.«148424_j10780367913281_1_alg».proof.Proof.KernelHost
import proofs.«148424_j10780367913281_1_alg».proof.Proof.KernelArray
import proofs.«148424_j10780367913281_1_alg».proof.Proof.KernelFeat
import proofs.«148424_j10780367913281_1_alg».proof.Proof.KernelRun
import proofs.«148424_j10780367913281_1_alg».proof.Proof.Bridge
import proofs.«148424_j10780367913281_1_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The reference's read-out of any node features is the kernel's: one scatter-add at the graph ids into zero. -/
theorem ref_readout (nf : (⟨Cert.ReferenceIdeal.S30000x256, .f32⟩ : BufTy).Contents (Elt Ideal))
    (graphOf : (⟨Cert.ReferenceIdeal.S30000, .i32⟩ : BufTy).Contents (Elt Ideal)) :
    Host.scatterAdd Cert.ReferenceIdeal.scatter_S100x256_S30000x1_S30000x256_1_0_0_1
        (Cert.ReferenceIdeal.Read.val_main_v46 (F := Ideal)) (Cert.ReferenceIdeal.Read.val_main_v47 (F := Ideal) graphOf) nf
      = KernelRun.readout nf graphOf := rfl

/-- Both idealized programs end with the node features at `featM` of the kernel's arguments and the graph features at
    their read-out. -/
theorem algebraic : Cert.algebraic_KernelIdeal_ReferenceIdeal := by
  intro m ρ m' ρ' hpre hagree
  refine ⟨fun c => KernelArray.featV m c,
    fun c => KernelRun.readout (KernelArray.featV m c) (m ((c.tc : Thread Cert.KernelIdeal.nD Cert.KernelIdeal.τ).loc Cert.KernelIdeal.main_arg17)),
    KernelRun.run m KernelBlock.block_net ρ, ?_⟩
  refine (θ_run Cert.ReferenceIdeal.defs _ _).mono (fun r h c => ?_) (Cert.ReferenceIdeal.Value.run (F := Ideal) m' ρ')
  obtain ⟨h45, h48, hargs⟩ := h c
  obtain ⟨f1, f5, f9, f13⟩ := Finite.reals_of_pre _ _ _ _ _ _ _ _ _ _ _ _ _ _ _ _ _ _ (hpre c)
  obtain ⟨a0, a1, a2, a3, a4, a5, a6, a7, a8, a9, a10, a11, a12, a13, a14, a15, a16, a17⟩ := hagree c
  have keyM : Cert.ReferenceIdeal.Read.val_main_v45 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))
      = KernelFeat.featM m c := by
    rw [a0, a1, a2, a3, a4, a5, a6, a7, a8, a9, a10, a11, a12, a13, a15, a16]
    exact Bridge.ref_eq_feat _ _ _ _ _ _ _ _ _ _ _ _ _ _ _ _ f1 f5 f9 f13
  have key := keyM.trans (KernelFeat.featV_eq m c).symm
  refine ⟨h45.trans ((Cert.ReferenceIdeal.Read.val_main_v45_eq _ _ _ _ _ _ _ _ _ _ _ _ _ _ _ _).trans key),
    h48.trans ((Cert.ReferenceIdeal.Read.val_main_v48_eq m' c).trans ?_), hargs⟩
  unfold Cert.ReferenceIdeal.Read.val_main_v48
  rw [key, a17]
  exact ref_readout _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
